-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S1x1024 : Shape := ⟨2, ![1, 1024]⟩
abbrev S256x128 : Shape := ⟨2, ![256, 128]⟩
abbrev S2048x128 : Shape := ⟨2, ![2048, 128]⟩
abbrev S256x2048 : Shape := ⟨2, ![256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 12
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1x3072, .f32⟩
  | .hbm, ⟨7, _⟩ => ⟨S4096x3072, .bf16⟩
  | .hbm, ⟨8, _⟩ => ⟨S4096x1024, .bf16⟩
  | .hbm, ⟨9, _⟩ => ⟨S1x1024, .f32⟩
  | .hbm, ⟨10, _⟩ => ⟨S4096x1024, .f32⟩
  | .hbm, ⟨11, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S256x128, .bf16⟩
  | .local _ .vmem, ⟨15, _⟩ => ⟨S256x128, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S2x2048x1024_S4096x1024 : S2x2048x1024.ShapeCasts S4096x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  iota_S256x2048_d0_w32 : S256x2048.Iotas .tc 32 [0]
  iota_S256x2048_d1_w32 : S256x2048.Iotas .tc 32 [1]
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S256x64 : S256x128.Slices ![0, 0] S256x64
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S256x128_S256x64_0_0 : ∀ a, (![0, 0] : Fin 2 → Nat) a + S256x64.size a ≤ S256x128.size a
  h_S256x64 : 0 < S256x64.numel
  packedbf16_S256x128_S256x64_0_0 : (Rect.unit (s := S256x128) ![0, 0] S256x64.size inb_S256x128_S256x64_0_0).PackedRows (EltTy.packing .bf16)
  slices_S256x128_o0_64_S256x64 : S256x128.Slices ![0, 64] S256x64
  inb_S2048x128_S2048x64_0_64 : ∀ a, (![0, 64] : Fin 2 → Nat) a + S2048x64.size a ≤ S2048x128.size a
  inb_S256x128_S256x64_0_64 : ∀ a, (![0, 64] : Fin 2 → Nat) a + S256x64.size a ≤ S256x128.size a
  packedbf16_S256x128_S256x64_0_64 : (Rect.unit (s := S256x128) ![0, 64] S256x64.size inb_S256x128_S256x64_0_64).PackedRows (EltTy.packing .bf16)
  shapeCasts_S1024_S1x1024 : S1024.ShapeCasts S1x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .bf16 = 32 ∨ (Rect.block (s := S4096x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x3072.size a
  hwx1_0 : ∀ i : grid1.Coords, EltTy.bits .bf16 = 32 ∨ (Rect.block (s := S4096x3072) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x1024.size a
  hwx1_3 : ∀ i : grid1.Coords, EltTy.bits .bf16 = 32 ∨ (Rect.block (s := S4096x1024) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S_, .i1⟩
  | .hbm, ⟨23, _⟩ => ⟨S2048x2048, .i1⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .i1⟩
  | .hbm, ⟨31, _⟩ => ⟨S2048x2048, .i1⟩
  | .hbm, ⟨32, _⟩ => ⟨S2048x2048, .i1⟩
  | .hbm, ⟨33, _⟩ => ⟨S1x1x2048x2048, .i1⟩
  | .hbm, ⟨34, _⟩ => ⟨S_, .f32⟩
  | .hbm, ⟨35, _⟩ => ⟨S2x16x2048x2048, .i1⟩
  | .hbm, ⟨36, _⟩ => ⟨S2x16x2048x2048, .f32⟩
  | .hbm, ⟨37, _⟩ => ⟨S2x16x2048x2048, .f32⟩
  | .hbm, ⟨38, _⟩ => ⟨S_, .f32⟩
  | .hbm, ⟨39, _⟩ => ⟨S2x16x2048, .f32⟩
  | .hbm, ⟨40, _⟩ => ⟨S_, .f32⟩
  | .hbm, ⟨41, _⟩ => ⟨S2x16x2048, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x2048, .f32⟩
  | .hbm, ⟨47, _⟩ => ⟨S_, .f32⟩
  | .hbm, ⟨48, _⟩ => ⟨S2x16x2048, .f32⟩
  | .hbm, ⟨49, _⟩ => ⟨S2x16x2048x1, .f32⟩
  | .hbm, ⟨50, _⟩ => ⟨S2x16x2048x2048, .f32⟩
  | .hbm, ⟨51, _⟩ => ⟨S2x16x2048x2048, .f32⟩
  | .hbm, ⟨52, _⟩ => ⟨S2x16x2048x64, .f32⟩
  | .hbm, ⟨53, _⟩ => ⟨S2x2048x16x64, .f32⟩
  | .hbm, ⟨54, _⟩ => ⟨S2x2048x1024, .f32⟩
  | .hbm, ⟨55, _⟩ => ⟨S2x2048x1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KbReg0.lean ====
/-
  The fused projection launch (a tiled product plus bias): each window's block at a grid point, what the body
  leaves in the output block as a function of the three input blocks, the body's run on whole staging buffers, the
  proof data of the pipeline over the contents the launch finds, and the body obligation at every grid point.
-/
import proofs.«107029_g85925115723924_cont_9to1c4b_374_6_alg».proof.Proof.Gen.Kernel.Launch
import proofs.«107029_g85925115723924_cont_9to1c4b_374_6_alg».proof.Proof.Gen.Kernel.Skeleton
import proofs.«107029_g85925115723924_cont_9to1c4b_374_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0
abbrev r0_c : Rect S1x1024 := Rect.unit (s := S1x1024) ![0, 0] S1x1024.size inb_S1x1024_S1x1024_0_0

/-- The output block after the body: its one store, of the product of the row block and the column block plus the bias row. -/
def out0_3 (x0 : Vec F S512x1024 .f32) (x1 : Vec F S1024x1024 .f32) (x2 : Vec F S1x1024 .f32) : Vec F S512x1024 .bf16 :=
  View.canon [⟨r0_a, k0_pay1 (View.ld x0 r0_a) (View.ld x1 r0_b) (View.ld x2 r0_c)⟩]

/-- The one store covers the block. -/
theorem cover0_3 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging buffers, the inputs' at given contents and the output's at anything, runs to its return
    leaving the inputs as they were and the output at out0_3 of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mm_bias_kernel i arg2 harg2 arg3 harg3 arg4 harg4 arg5 harg5) K := by
  simp only [cc0__mm_bias_kernel_eq_skeleton]; unfold cc0__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The pipeline's proof data on core c: the arrays as the launch finds them; after the body at point t each input's
    buffer at its block and the output's at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbReg1.lean ====
/-
  The attention launch: each window's block at a grid point (a 256-row block of one head pair's queries; the whole
  2048-row key and value column blocks of that head pair), what the body leaves in the output block — two stores, one
  per head of the pair, each the masked softmax attention of its 64 columns —, the body's run on whole staging buffers,
  the proof data of the pipeline over the contents the launch finds, and the body obligation at every grid point.
-/
import proofs.«107029_g85925115723924_cont_9to1c4b_374_6_alg».proof.Proof.Gen.Kernel.Launch
import proofs.«107029_g85925115723924_cont_9to1c4b_374_6_alg».proof.Proof.Gen.Kernel.Skeleton
import proofs.«107029_g85925115723924_cont_9to1c4b_374_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it is fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: the query block whole; the left and right 64 columns of the key and
    value blocks and of the output block. -/
abbrev r1_q : Rect S256x128 := Rect.unit (s := S256x128) ![0, 0] S256x128.size inb_S256x128_S256x128_0_0
abbrev r1_kl : Rect S2048x128 := Rect.unit (s := S2048x128) ![0, 0] S2048x64.size inb_S2048x128_S2048x64_0_0
abbrev r1_kr : Rect S2048x128 := Rect.unit (s := S2048x128) ![0, 64] S2048x64.size inb_S2048x128_S2048x64_0_64
abbrev r1_ol : Rect S256x128 := Rect.unit (s := S256x128) ![0, 0] S256x64.size inb_S256x128_S256x64_0_0
abbrev r1_or : Rect S256x128 := Rect.unit (s := S256x128) ![0, 64] S256x64.size inb_S256x128_S256x64_0_64

/-- The output block after the body: its two stores, last first — the right 64 columns hold the second head's
    attention, the left 64 the first head's. -/
def out1_3 (i : grid1.Coords) (x0 : Vec F S256x128 .bf16) (x1 : Vec F S2048x128 .bf16) (x2 : Vec F S2048x128 .bf16) : Vec F S256x128 .bf16 :=
  View.canon [⟨r1_or, k1_pay1 (k1_pay2 i) (k1_pay5 (View.ld x0 r1_q)) (k1_pay6 (View.ld x1 r1_kr)) (k1_pay7 (View.ld x2 r1_kr)) (constant S256x2048 .f32 0x00000000#32)⟩,
    ⟨r1_ol, k1_pay4 i (View.ld x0 r1_q) (View.ld x1 r1_kl) (View.ld x2 r1_kl)⟩]

/-- The two stores tile the block. -/
theorem cover1_3 (p0 : Vec F S256x64 .bf16) (p1 : Vec F S256x64 .bf16) (y : S256x128.Idx) :
    ∃ pc ∈ ([⟨r1_or, p0⟩, ⟨r1_ol, p1⟩] : List (View.Piece (Elt F) S256x128 .bf16)), y ∈ pc.1.set :=
  View.cover_of_tiled [⟨r1_or, p0⟩, ⟨r1_ol, p1⟩] S256x64.size (by rfl) y

set_option maxHeartbeats 1000000 in
/-- The body on whole staging buffers, the inputs' at given contents and the output's at anything, runs to its return
    leaving the inputs as they were and the output at out1_3 of them. -/
theorem sound_kernel1 (c : Dev nD) (E : Set ℕ) (i : grid1.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 i x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The pipeline's proof data on core c: the arrays as the launch finds them; after the body at point t each input's
    buffer at its block and the output's at out1_3 of the input blocks; nothing owed. The three input windows read ONE array (the fused
    projection), so its full share is dealt among them: a half, a quarter, a quarter. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbReg2.lean ====
/-
  The output projection launch (a tiled product plus bias): each window's block at a grid point, what the body
  leaves in the output block as a function of the three input blocks, the body's run on whole staging buffers, the
  proof data of the pipeline over the contents the launch finds, and the body obligation at every grid point.
-/
import proofs.«107029_g85925115723924_cont_9to1c4b_374_6_alg».proof.Proof.Gen.Kernel.Launch
import proofs.«107029_g85925115723924_cont_9to1c4b_374_6_alg».proof.Proof.Gen.Kernel.Skeleton
import proofs.«107029_g85925115723924_cont_9to1c4b_374_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it is fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body reads and writes. -/
abbrev r2_a : Rect S512x1024 := Rect.unit (s := S512x1024) ![0, 0] S512x1024.size inb_S512x1024_S512x1024_0_0
abbrev r2_b : Rect S1024x1024 := Rect.unit (s := S1024x1024) ![0, 0] S1024x1024.size inb_S1024x1024_S1024x1024_0_0
abbrev r2_c : Rect S1x1024 := Rect.unit (s := S1x1024) ![0, 0] S1x1024.size inb_S1x1024_S1x1024_0_0

/-- The output block after the body: its one store, of the product of the row block and the column block plus the bias row. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_b) (View.ld x2 r2_c)⟩]

/-- The one store covers the block. -/
theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole staging buffers, the inputs' at given contents and the output's at anything, runs to its return
    leaving the inputs as they were and the output at out2_3 of them. -/
theorem sound_kernel2 (c : Dev nD) (E : Set ℕ) (i : grid2.Coords) (arg2 : Memref sig .tc .vmem S512x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__mm_bias_kernel i arg2 harg2 arg3 harg3 arg4 harg4 arg5 harg5) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-- The pipeline's proof data on core c: the arrays as the launch finds them; after the body at point t each input's
    buffer at its block and the output's at out2_3 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.LibSharedInputs.lean ====
/-
  Launching a one-region TensorCore program whose kernel is handed ONE array through SEVERAL input windows,
  with host operations before and after the region.

  The frame run of the library for an @main that continues after its region (the theorem
  Pipeline.θ_run_frame_around_track) asks the windows' arrays to be pairwise distinct buffers, each held at the
  full share. Here the arrays may coincide: the full share of a buffer that several input windows read is dealt
  among those windows (hypothesis hdeal, an equivalence between the distinct buffers at the full share and the
  windows' arrays at their shares), the region runs on the windows' shares, and at the region's exit the shares
  are joined again so that the host operations after the region run on whole buffers. The post is the library's
  FramePost, read at the contents after those operations from an exit valuation the caller names (VN): every
  window's array at what the proof data computes, every other unscoped buffer at what the later operations
  compute from the exit contents.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type}

namespace Pipeline

open Idealize.ShloMosaic.Rounds

/-! ## The operations after the region, the arrays possibly shared -/

section SharedTail

variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

omit [Fintype P] [DecidableEq P] in
/-- The buffers an operation after the region may touch, held at Wv, are the DISTINCT buffers behind the windows'
    arrays and the bypassing buffers, each whole at the full share at Wv — whether or not two windows have one
    array (the set of the arrays' buffers is an image: a buffer two windows share is counted once). -/
theorem held_tailRefs_shared {gr : Nat} {W : Nat} (pre : Prefetch sig) (win : Fin W → WinSpec sig gr)
    (c : Dev nD) (Wv : Valuation τ sig Val) :
    (StableHlo.held (c.tc : Thread nD τ) (tailRefs sig pre win) Wv : sProp 𝕄)
      = iprop(arrBufs win c (fun b => Wv (Proc.devRef .tc b)) ∗ unscopedRestP pre win c (fun b => Wv (Proc.devRef .tc b))) := by
  classical
  have hdisj : Disjoint (Finset.univ.image (arrRef win)) (restRefsP sig pre win) :=
    Finset.disjoint_left.mpr fun b hb hr => (Finset.mem_sdiff.mp (Finset.mem_sdiff.mp hr).1).2 hb
  unfold StableHlo.held tailRefs arrBufs unscopedRestP
  rw [bigSep_map, bigSep_union hdisj]
  rfl

omit [Fintype P] [DecidableEq P] in
set_option backward.isDefEq.respectTransparency.types false in
/-- THE OPERATIONS AFTER THE REGION, the arrays possibly shared: from the region's exit — the boundary, the distinct
    buffers behind the arrays whole at the exit contents VN, the bypassing buffers at the entry contents V, which
    VN agrees with off the arrays — the operations run within those buffers, writing no array, and hand back the
    arrays' buffers at VN and the bypassing buffers at what the operations compute from VN. -/
theorem tail_seqs_shared [Preorder Lvl] {gr : Nat} {W : Nat} (pre : Prefetch sig) (win : Fin W → WinSpec sig gr)
    (c : Dev nD) (V VN : Valuation τ sig Val)
    (hVN' : ∀ b : Ref sig .tc, (∀ w, arrRef win w ≠ b) → VN (Proc.devRef .tc b) = V (Proc.devRef .tc b))
    (opss : List (List (HloOp τ sig Val)))
    (hsub : ∀ ops ∈ opss, ∀ op ∈ ops, op.bufs ⊆ tailRefs sig pre win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => VN (Proc.devRef .tc b))
              ∗ unscopedRestP pre win c (fun b => StableHlo.after opss.flatten VN (Proc.devRef .tc b))) -∗ Q' ⟨⟩)
        ∗ boundary (c.tc : Thread nD τ) ∗ arrBufs win c (fun b => VN (Proc.devRef .tc b))
        ∗ unscopedRestP pre win c (fun b => V (Proc.devRef .tc b)))
      ⊢ wp frame (wpE 𝔻 𝕍 (c.tc : Thread nD τ) none) Set.univ (chain (opss.map StableHlo.seq)) Q' := by
  classical
  have hW : (StableHlo.held (c.tc : Thread nD τ) (tailRefs sig pre win) VN : sProp 𝕄)
      = iprop(arrBufs win c (fun b => VN (Proc.devRef .tc b)) ∗ unscopedRestP pre win c (fun b => V (Proc.devRef .tc b))) := by
    rw [held_tailRefs_shared pre win c VN]
    congr 1
    unfold unscopedRestP
    exact bigSep_congr fun b hb => by
      beta_reduce
      rw [hVN' b fun w e => (Finset.mem_sdiff.mp (Finset.mem_sdiff.mp hb).1).2 (Finset.mem_image.mpr ⟨w, Finset.mem_univ _, e⟩)]
  have hW' : (StableHlo.held (c.tc : Thread nD τ) (tailRefs sig pre win) (StableHlo.after opss.flatten VN) : sProp 𝕄)
      = iprop(arrBufs win c (fun b => VN (Proc.devRef .tc b))
          ∗ unscopedRestP pre win c (fun b => StableHlo.after opss.flatten VN (Proc.devRef .tc b))) := by
    rw [held_tailRefs_shared pre win c]
    congr 1
    unfold arrBufs
    exact bigSep_congr fun b hb => by
      obtain ⟨w, -, rfl⟩ := Finset.mem_image.mp hb
      beta_reduce
      rw [StableHlo.after_of_forall_not_mem _ _ fun op hop => ?_]
      obtain ⟨ops, hops, hop'⟩ := List.mem_flatten.mp hop
      exact hkeep ops hops op hop' w
  rw [← List.append_nil (opss.map StableHlo.seq), ← hW]
  iintro ⟨Hk, Hb⟩
  iapply (wp_seqs_then pcs defs₀ 𝒱₀ c (tailRefs sig pre win) [] opss hsub hfresh VN) $$ Hb
  iintro Hb
  rw [chain_nil, wp_pure, hW']
  imodintro
  iapply Hk
  icases Hb with ⟨-, H⟩
  iexact H

end SharedTail

/-! ## The frame run around the region, input windows sharing arrays -/

section SharedFrame

variable {Λ₀ : SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The pipeline's arrays at contents that are a function Vb of the array's buffer (hF) are each window's array,
    a whole buffer (harr), at the window's share at Vb. -/
theorem arrays_eq_deal (cfgs : P → Cfg sig Λ₀) (dats : (p : P) → (c : Dev nD) → Dat τ Val Unit ℕ (UR sig nD τ) ℕ (cfgs p) c) (p : P)
    (c : Dev nD) (harr : ∀ w, ((cfgs p).spec w).arr.IsWhole)
    (Vb : (b : Ref sig .tc) → Buf Val ((c.tc : Thread nD τ).loc b))
    (F : (w : Fin (cfgs p).W) → Buf Val (((cfgs p).spec w).arr.view.loc (c.tc : Thread nD τ)))
    (hF : ∀ w, F w = Vb (arrRef (cfgs p).spec w)) :
    ((dats p c).arrays F : sProp 𝕄)
      = bigSep Finset.univ fun w => (((c.tc : Thread nD τ).loc (arrRef (cfgs p).spec w)) ↦{(dats p c).share w} Vb (arrRef (cfgs p).spec w) : sProp 𝕄) := by
  unfold Dat.arrays
  exact bigSep_congr fun w _ => by rw [(harr w).set_eq_univ, hF]

/-- THE FRAME RUN with a TRACKING invariant for an @main that continues after the region with the host operations
    opss, of a pipeline that prefetches nothing and whose windows MAY SHARE ARRAYS (hw: the layout facts but for the
    arrays' distinctness). As Pipeline.θ_run_frame_around_track, with two changes. The shares: instead of every
    array held at the full share, hdeal says that the distinct buffers behind the arrays, each whole at the full
    share, are the windows' arrays each at its window's share — for every contents Vb of the buffers, in both
    directions (dealt at the region's entry, joined again at its exit). The exit contents: VN names what every
    buffer holds at the region's exit — each window's array what the proof data computes (hVN), every buffer that is
    no window's array its entry contents (hVN') — and the post is FramePost at the contents the operations compute
    from VN. -/
theorem θ_run_frame_around_track_shared
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (hdeal : ∀ (c : Dev nD) (Vb : (b : Ref sig .tc) → Buf Val ((c.tc : Thread nD τ).loc b)),
      (arrBufs (cfgs p).spec c Vb : sProp 𝕄)
        ⊣⊢ bigSep Finset.univ fun w => (((c.tc : Thread nD τ).loc (arrRef (cfgs p).spec w)) ↦{(dats p c).share w} Vb (arrRef (cfgs p).spec w) : sProp 𝕄))
    (V₀ VN : Dev nD → Valuation τ sig Val)
    (hVN : ∀ c w, (dats p c).arrAt w (cfgs p).N = VN c (Proc.devRef .tc (arrRef (cfgs p).spec w)))
    (hVN' : ∀ c (b : Ref sig .tc), (∀ w, arrRef (cfgs p).spec w ≠ b) → VN c (Proc.devRef .tc b) = V₀ c (Proc.devRef .tc b))
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (dats p c).A w = V₀ c (Proc.devRef .tc (arrRef (cfgs p).spec w)))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (fun c b => StableHlo.after opss.flatten (VN c) (Proc.devRef .tc b))) := by
  classical
  -- the arrays at the region's exit, window by window at its share, at the exit contents
  have hE : ∀ c, ((dats p c).arrays (fun w => (dats p c).arrAt w (cfgs p).N) : sProp 𝕄)
      = bigSep Finset.univ fun w => (((c.tc : Thread nD τ).loc (arrRef (cfgs p).spec w))
          ↦{(dats p c).share w} VN c (Proc.devRef .tc (arrRef (cfgs p).spec w)) : sProp 𝕄) := fun c =>
    arrays_eq_deal cfgs dats p c harr (fun b => VN c (Proc.devRef .tc b)) _ (fun w => hVN c w)
  exact θ_run_region_pf_tail (fun q => (cfgs q).toPCfg (Val := Val)) (fun q => (cfgs q).toPCfg_adm) dats () hcell p hw
    (OwnSemFacts.none (cfgs p).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => ((hdeal c (fun b => V₀ c (Proc.devRef .tc b))).1).trans (Entails.of_eq
      (arrays_eq_deal cfgs dats p c harr (fun b => V₀ c (Proc.devRef .tc b)) (fun w => (dats p c).arrAt w 0) (fun w => hA c w)).symm))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => unscopedRestP (Ix := Unit) (Name := ℕ) (U := UR sig nD τ) (Lvl := ℕ) Prefetch.none (cfgs p).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfgs p).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      show iprop((iprop((dats p c).arrays (fun w => (dats p c).arrAt w (cfgs p).N)
                ∗ unscopedRestP Prefetch.none (cfgs p).spec c (fun b => StableHlo.after opss.flatten (VN c) (Proc.devRef .tc b))) -∗ Q' ⟨⟩)
            ∗ boundary (c.tc : Thread nD τ) ∗ (dats p c).arrays (fun w => (dats p c).arrAt w (cfgs p).N)
            ∗ unscopedRestP Prefetch.none (cfgs p).spec c (fun b => V₀ c (Proc.devRef .tc b))) ⊢ _
      rw [hE c]
      iintro ⟨Hk, Hb, Ha, HZ⟩
      ihave Ha' := (hdeal c (fun b => VN c (Proc.devRef .tc b))).2 $$ Ha
      iapply (tail_seqs_shared (fun q => (cfgs q).toPCfg (Val := Val)) defs₀ 𝒱₀ Prefetch.none (cfgs p).spec c (V₀ c) (VN c) (hVN' c)
        opss hsub hfresh hkeep Q')
      isplitl [Hk]
      · iintro ⟨Ha2, Hu⟩
        iapply Hk
        isplitl [Ha2]
        · iapply (hdeal c (fun b => VN c (Proc.devRef .tc b))).1; iexact Ha2
        · iexact Hu
      · isplitl [Hb]; · iexact Hb
        isplitl [Ha']; · iexact Ha'
        iexact HZ)
    (QY := fun c s => ∀ b ∈ restRefsP sig Prefetch.none (cfgs p).spec,
      s.mem ((c.tc : Thread nD τ).loc b) = StableHlo.after opss.flatten (VN c) (Proc.devRef .tc b))
    (hY := fun c s' => by
      iintro ⟨-, HU, HSI⟩
      unfold unscopedRestP
      imodintro
      iapply (pointsTo_read_all (restRefsP sig Prefetch.none (cfgs p).spec) (fun b => (c.tc : Thread nD τ).loc b)
        (fun b => StableHlo.after opss.flatten (VN c) (Proc.devRef .tc b)) s')
      isplitl [HU] <;> iassumption)
    (hQ := fun s h c => ⟨(h c).1, rest_of_restP Prefetch.none (cfgs p).spec (fun k => k.elim0) c
      (fun b => StableHlo.after opss.flatten (VN c) (Proc.devRef .tc b)) s (fun k => k.elim0) (h c).2.1 (h c).2.2⟩)

end SharedFrame

/-! ## The exit contents computed by the library's withArrays -/

section SharedExit

variable {Λ₀ : SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- A valuation read at equal references, across the equation. -/
theorem valuation_cast (V : Valuation τ sig Val) {b' b : DevRef τ sig} (e : b' = b) :
    cast (congrArg (fun x : DevRef τ sig => x.ty.Contents Val) e) (V b') = V b := by
  subst e; rfl

omit [Fintype P] [DecidableEq P] [∀ e, Nonempty (Val e)] in
/-- Pipeline.withArrays read at a window's array when windows may share arrays: withArrays picks SOME window on the
    buffer, and every window on it computes the same contents — when every window is an input window, whose array is
    never written and holds its entry contents (hA: those of the valuation), or is alone on its array (hio). -/
theorem withArrays_arr_shared (cfgs : P → Cfg sig Λ₀) (dats : (p : P) → (c : Dev nD) → Dat τ Val Unit ℕ (UR sig nD τ) ℕ (cfgs p) c) (p : P)
    (c : Dev nD) (V₀ : Valuation τ sig Val)
    (hA : ∀ w, (dats p c).A w = V₀ (Proc.devRef .tc (arrRef (cfgs p).spec w)))
    (hio : ∀ w, ((cfgs p).win w).isOut = false ∨ ∀ w', arrRef (cfgs p).spec w' = arrRef (cfgs p).spec w → w' = w)
    (n : Nat) (w : Fin (cfgs p).W) :
    withArrays (cfgs p).spec c V₀ (fun w => (dats p c).arrAt w n) (Proc.devRef .tc (arrRef (cfgs p).spec w)) = (dats p c).arrAt w n := by
  unfold withArrays
  have h : ∃ w', Proc.devRef .tc (arrRef (cfgs p).spec w') = Proc.devRef (τ := τ) .tc (arrRef (cfgs p).spec w) := ⟨w, rfl⟩
  rw [dif_pos h]
  suffices ∀ (w' : Fin (cfgs p).W) (e : Proc.devRef .tc (arrRef (cfgs p).spec w') = Proc.devRef (τ := τ) .tc (arrRef (cfgs p).spec w)),
      cast (congrArg (fun b' : DevRef τ sig => b'.ty.Contents Val) e) ((dats p c).arrAt w' n) = (dats p c).arrAt w n from this _ h.choose_spec
  intro w' e
  have e' : arrRef (cfgs p).spec w' = arrRef (cfgs p).spec w := Proc.devRef_injective _ e
  rcases hio w with hin | huniq
  · rcases hio w' with hin' | huniq'
    · rw [(dats p c).arrAt_in w' hin' n, (dats p c).arrAt_in w hin n, hA w', hA w]
      exact valuation_cast V₀ e
    · obtain rfl : w = w' := huniq' w e'.symm
      rfl
  · obtain rfl : w' = w := huniq w' e'
    rfl

/-- Pipeline.θ_run_frame_around_track_shared with the exit contents the library computes (Pipeline.withArrays: the
    arrays at what the proof data computes, every other buffer at its entry contents), for windows each of which is an
    input window or alone on its array (hio): the post is the library's, FramePost at Pipeline.afterTail₀. -/
theorem θ_run_frame_around_track_shared_in
    (cfgs : P → Cfg sig Λ₀) (dats : (p : P) → (c : Dev nD) → Dat τ Val Unit ℕ (UR sig nD τ) ℕ (cfgs p) c) (p : P)
    (hcell : Function.Injective (cellOf (nD := nD) (τ := τ) cfgs)) (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (hio : ∀ w, ((cfgs p).win w).isOut = false ∨ ∀ w', arrRef (cfgs p).spec w' = arrRef (cfgs p).spec w → w' = w)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (hdeal : ∀ (c : Dev nD) (Vb : (b : Ref sig .tc) → Buf Val ((c.tc : Thread nD τ).loc b)),
      (arrBufs (cfgs p).spec c Vb : sProp 𝕄)
        ⊣⊢ bigSep Finset.univ fun w => (((c.tc : Thread nD τ).loc (arrRef (cfgs p).spec w)) ↦{(dats p c).share w} Vb (arrRef (cfgs p).spec w) : sProp 𝕄))
    (V₀ : Dev nD → Valuation τ sig Val)
    (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (dats p c).A w = V₀ c (Proc.devRef .tc (arrRef (cfgs p).spec w)))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (FramePost cfgs dats p (afterTail₀ cfgs dats p V₀ opss)) :=
  θ_run_frame_around_track_shared cfgs dats p hcell hw hne harr hstage defs₀ 𝒱₀ m g main hbody howed hdeal V₀
    (fun c => withArrays (cfgs p).spec c (V₀ c) fun w => (dats p c).arrAt w (cfgs p).N)
    (fun c w => (withArrays_arr_shared cfgs dats p c (V₀ c) (hA c) hio (cfgs p).N w).symm)
    (fun c b hb => withArrays_of_ne (cfgs p).spec c (V₀ c) _ b hb)
    opss hsub hfresh hkeep hmain hA hin hout

end SharedExit

end Pipeline

end Idealize.ShloMosaic

end
-- ==== Proof.KbRunA.lean ====
/-
  The whole run of the layer's program: its host reshapes and its three launches as segments over one thread state —
  every unscoped buffer of the core at a named valuation, the generator register, nothing owed. The valuations are a
  chain from the launch memory: a reshape stretch applies its operations; a launch replaces its output array by what
  its write-backs leave. The attention launch reads ONE array (the fused projection) through three input windows, so
  at its entry that array's full share is dealt among them and at its exit joined again. The run ends with every
  unscoped buffer at the last valuation.
-/
import proofs.«107029_g85925115723924_cont_9to1c4b_374_6_alg».proof.Proof.KbReg0
import proofs.«107029_g85925115723924_cont_9to1c4b_374_6_alg».proof.Proof.KbReg1
import proofs.«107029_g85925115723924_cont_9to1c4b_374_6_alg».proof.Proof.KbReg2
import proofs.«107029_g85925115723924_cont_9to1c4b_374_6_alg».proof.Proof.LibSharedInputs
import proofs.«107029_g85925115723924_cont_9to1c4b_374_6_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev W0 : Dev nD → Valuation τ sig (Elt F) := fun c b => (s₀ m ρ).mem ((c : Dev nD), b)
/-- After the two reshapes before the first launch. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the fused projection launch: its output array at what its write-backs leave. -/
def W2 (c : Dev nD) : Valuation τ sig (Elt F) :=
  Function.update (W1 m ρ c) (Proc.devRef .tc main_v2) ((dat0 (U1 m ρ) c).arrAt 3 cfg0.N)
abbrev U2 : (c : Dev nD) → (b : Ref sig .tc) → Buf (Elt F) ((c : Thread nD τ).loc b) := fun c b => W2 m ρ c b
/-- After the attention launch. -/
def W3 (c : Dev nD) : Valuation τ sig (Elt F) :=
  Function.update (W2 m ρ c) (Proc.devRef .tc main_v3) ((dat1 (U2 m ρ) c).arrAt 3 cfg1.N)
abbrev U3 : (c : Dev nD) → (b : Ref sig .tc) → Buf (Elt F) ((c : Thread nD τ).loc b) := fun c b => W3 m ρ c b
/-- After the bias reshape. -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b
/-- After the output projection launch. -/
def W5 (c : Dev nD) : Valuation τ sig (Elt F) :=
  Function.update (W4 m ρ c) (Proc.devRef .tc main_v5) ((dat2 (U4 m ρ) c).arrAt 3 cfg2.N)
abbrev U5 : (c : Dev nD) → (b : Ref sig .tc) → Buf (Elt F) ((c : Thread nD τ).loc b) := fun c b => W5 m ρ c b
/-- After the last reshape. -/
abbrev W6 : Dev nD → Valuation τ sig (Elt F) := fun c => StableHlo.after hostOps3 (W5 m ρ c)

theorem W2_out (c : Dev nD) : W2 m ρ c (Proc.devRef .tc main_v2) = (dat0 (U1 m ρ) c).arrAt 3 cfg0.N := by
  unfold W2; exact Function.update_self _ _ _
theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) _ _
theorem W3_out (c : Dev nD) : W3 m ρ c (Proc.devRef .tc main_v3) = (dat1 (U2 m ρ) c).arrAt 3 cfg1.N := by
  unfold W3; exact Function.update_self _ _ _
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) _ _
theorem W5_out (c : Dev nD) : W5 m ρ c (Proc.devRef .tc main_v5) = (dat2 (U4 m ρ) c).arrAt 3 cfg2.N := by
  unfold W5; exact Function.update_self _ _ _
theorem W5_of_ne (c : Dev nD) (b : Ref sig .tc) (hb : b ≠ main_v5) : W5 m ρ c (Proc.devRef .tc b) = W4 m ρ c (Proc.devRef .tc b) := by
  unfold W5; exact Function.update_of_ne (StableHlo.devRef_ne_of_ne hb) _ _

/-! ## The proof data family and the thread state -/

abbrev adm' : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm' p) c
  | ⟨0, _⟩ => fun c => dat0 (U1 m ρ) c
  | ⟨1, _⟩ => fun c => dat1 (U2 m ρ) c
  | ⟨2, _⟩ => fun c => dat2 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

/-! ## The attention launch's one input array, dealt among its three windows -/

/-- The two distinct buffers behind the attention launch's four windows, each whole at the full share, are the four
    windows' arrays at their shares: the fused projection's full share is a half, a quarter and a quarter. -/
theorem deal1 (V : (c : Dev nD) → (b : Ref sig .tc) → Buf (Elt F) ((c : Thread nD τ).loc b)) (c : Dev nD)
    (Vb : (b : Ref sig .tc) → Buf (Elt F) ((c : Thread nD τ).loc b)) :
    (Pipeline.arrBufs spec1 c Vb : sProp 𝕄)
      ⊣⊢ bigSep Finset.univ fun w => ((((c : Thread nD τ)).loc (Pipeline.arrRef spec1 w)) ↦{(dat1 V c).share w} Vb (Pipeline.arrRef spec1 w) : sProp 𝕄) := by
  rw [bigSep_W1]
  unfold Pipeline.arrBufs
  have e : (bigSep ({main_v2, main_v3} : Finset (Ref sig .tc)) (fun b => (((c : Thread nD τ)).loc b) ↦{fullShare} Vb b) : sProp 𝕄)
      = iprop(((((c : Thread nD τ)).loc main_v2) ↦{fullShare} Vb main_v2) ∗ ((((c : Thread nD τ)).loc main_v3) ↦{fullShare} Vb main_v3)) := by
    rw [BI.bigSep_insert (by decide), BI.bigSep_singleton]; rfl
  rw [show (Finset.univ.image (Pipeline.arrRef spec1) : Finset (Ref sig .tc)) = {main_v2, main_v3} from by decide, e]
  rw [show (dat1 V c).share 0 = fullShare.left from rfl, show (dat1 V c).share 1 = fullShare.right.left from rfl,
    show (dat1 V c).share 2 = fullShare.right.right from rfl, show (dat1 V c).share 3 = fullShare from rfl]
  constructor
  · iintro ⟨H2, H3⟩
    ihave H := (pointsTo_share (PosShare.mem_left_op_right fullShare)).1 $$ H2
    icases H with ⟨HL, HR⟩
    ihave H' := (pointsTo_share (PosShare.mem_left_op_right fullShare.right)).1 $$ HR
    icases H' with ⟨HRL, HRR⟩
    isplitl [HL]; · iexact HL
    isplitl [HRL]; · iexact HRL
    isplitl [HRR]; · iexact HRR
    iexact H3
  · iintro ⟨HL, HRL, HRR, H3⟩
    isplitr [H3]
    · iapply (pointsTo_share (PosShare.mem_left_op_right fullShare)).2
      isplitl [HL]; · iexact HL
      iapply (pointsTo_share (PosShare.mem_left_op_right fullShare.right)).2
      isplitl [HRL]; · iexact HRL
      iexact HRR
    iexact H3

end Cert.Kernel.Hand

end
-- ==== Proof.KbRunB.lean ====
/-
  The three launches as segments of the program's run: each entered from the thread state before it — every unscoped
  buffer at the valuation of that point — and left at the next. A launch takes its arrays out of the unscoped buffers
  at its entry and puts them back, the output at what its write-backs leave, at its exit. The attention launch's three
  input windows stand on one array: its full share is dealt among them at the entry and joined at the exit.
-/
import proofs.«107029_g85925115723924_cont_9to1c4b_374_6_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fused projection launch -/

theorem hF0 (c : Dev nD) (w : Fin cfg0.W) : (dat0 (U1 m ρ) c).arrAt w cfg0.N = U2 m ρ c (Pipeline.arrRef spec0 w) := by
  match w with
  | ⟨0, _⟩ => exact (((dat0 (U1 m ρ) c).arrAt_in 0 rfl _).trans (A_eq0 (U1 m ρ) c 0)).trans (W2_of_ne m ρ c main_v0 (by decide)).symm
  | ⟨1, _⟩ => exact (((dat0 (U1 m ρ) c).arrAt_in 1 rfl _).trans (A_eq0 (U1 m ρ) c 1)).trans (W2_of_ne m ρ c main_arg1 (by decide)).symm
  | ⟨2, _⟩ => exact (((dat0 (U1 m ρ) c).arrAt_in 2 rfl _).trans (A_eq0 (U1 m ρ) c 2)).trans (W2_of_ne m ρ c main_v1 (by decide)).symm
  | ⟨3, _⟩ => exact (W2_out m ρ c).symm
theorem hrest0 (c : Dev nD) : ∀ b, b ∉ Finset.univ.image (Pipeline.arrRef spec0) → U2 m ρ c b = U1 m ρ c b :=
  fun b hb => W2_of_ne m ρ c b fun h => hb (h ▸ Finset.mem_image.mpr ⟨3, Finset.mem_univ _, rfl⟩)

set_option backward.isDefEq.respectTransparency.types false in
/-- The launch over the thread state: its arrays split out of the unscoped buffers at its entry and put back at the
    exit contents; the generator register into the invariant and out; nothing owed. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The output projection launch -/

theorem hF2 (c : Dev nD) (w : Fin cfg2.W) : (dat2 (U4 m ρ) c).arrAt w cfg2.N = U5 m ρ c (Pipeline.arrRef spec2 w) := by
  match w with
  | ⟨0, _⟩ => exact (((dat2 (U4 m ρ) c).arrAt_in 0 rfl _).trans (A_eq2 (U4 m ρ) c 0)).trans (W5_of_ne m ρ c main_v3 (by decide)).symm
  | ⟨1, _⟩ => exact (((dat2 (U4 m ρ) c).arrAt_in 1 rfl _).trans (A_eq2 (U4 m ρ) c 1)).trans (W5_of_ne m ρ c main_arg3 (by decide)).symm
  | ⟨2, _⟩ => exact (((dat2 (U4 m ρ) c).arrAt_in 2 rfl _).trans (A_eq2 (U4 m ρ) c 2)).trans (W5_of_ne m ρ c main_v4 (by decide)).symm
  | ⟨3, _⟩ => exact (W5_out m ρ c).symm
theorem hrest2 (c : Dev nD) : ∀ b, b ∉ Finset.univ.image (Pipeline.arrRef spec2) → U5 m ρ c b = U4 m ρ c b :=
  fun b hb => W5_of_ne m ρ c b fun h => hb (h ▸ Finset.mem_image.mpr ⟨3, Finset.mem_univ _, rfl⟩)

set_option backward.isDefEq.respectTransparency.types false in
/-- The launch over the thread state: its arrays split out of the unscoped buffers at its entry and put back at the
    exit contents; the generator register into the invariant and out; nothing owed. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch -/

theorem hF1 (c : Dev nD) (w : Fin cfg1.W) : (dat1 (U2 m ρ) c).arrAt w cfg1.N = U3 m ρ c (Pipeline.arrRef spec1 w) := by
  match w with
  | ⟨0, _⟩ => exact (((dat1 (U2 m ρ) c).arrAt_in 0 rfl _).trans (A_eq1 (U2 m ρ) c 0)).trans (W3_of_ne m ρ c main_v2 (by decide)).symm
  | ⟨1, _⟩ => exact (((dat1 (U2 m ρ) c).arrAt_in 1 rfl _).trans (A_eq1 (U2 m ρ) c 1)).trans (W3_of_ne m ρ c main_v2 (by decide)).symm
  | ⟨2, _⟩ => exact (((dat1 (U2 m ρ) c).arrAt_in 2 rfl _).trans (A_eq1 (U2 m ρ) c 2)).trans (W3_of_ne m ρ c main_v2 (by decide)).symm
  | ⟨3, _⟩ => exact (W3_out m ρ c).symm
theorem hrest1 (c : Dev nD) : ∀ b, b ∉ Finset.univ.image (Pipeline.arrRef spec1) → U3 m ρ c b = U2 m ρ c b :=
  fun b hb => W3_of_ne m ρ c b fun h => hb (h ▸ Finset.mem_image.mpr ⟨3, Finset.mem_univ _, rfl⟩)

set_option backward.isDefEq.respectTransparency.types false in
/-- ENTRY: the core's unscoped buffers at the entry valuation are the launch's arrays, the shared one dealt, and the rest. -/
theorem split1 (c : Dev nD) : (StableHlo.held (c : Thread nD τ) (Pipeline.ucRefs τ sig) (W2 m ρ c) : sProp 𝕄)
    ⊢ iprop((dat1 (U2 m ρ) c).arrays ((dat1 (U2 m ρ) c).arrAt · 0) ∗ Pipeline.unscopedRest spec1 c (U2 m ρ c)) := by
  rw [← Pipeline.unscopedBufs_held c (W2 m ρ c), Pipeline.unscopedBufs_split₀ (fun _ : Unit => cfg1) () winFacts₀1.arr_unscoped c (U2 m ρ c)]
  exact sep_mono (((deal1 (U2 m ρ) c (U2 m ρ c)).1).trans (Entails.of_eq
    (Pipeline.arrays_eq_deal (fun _ : Unit => cfg1) (fun _ c => dat1 (U2 m ρ) c) () c arr_whole1 (U2 m ρ c) _ (fun w => A_eq1 (U2 m ρ) c w)).symm)) .rfl

set_option backward.isDefEq.respectTransparency.types false in
/-- EXIT: the launch's arrays at their final contents, the shared one joined again, and the rest are the core's
    unscoped buffers at the exit valuation. -/
theorem join1 (c : Dev nD) : iprop((dat1 (U2 m ρ) c).arrays ((dat1 (U2 m ρ) c).arrAt · cfg1.N) ∗ Pipeline.unscopedRest spec1 c (U2 m ρ c))
    ⊢ (StableHlo.held (c : Thread nD τ) (Pipeline.ucRefs τ sig) (W3 m ρ c) : sProp 𝕄) := by
  rw [← Pipeline.unscopedBufs_held c (W3 m ρ c), Pipeline.unscopedBufs_split₀ (fun _ : Unit => cfg1) () winFacts₀1.arr_unscoped c (U3 m ρ c),
    Pipeline.arrays_eq_deal (fun _ : Unit => cfg1) (fun _ c => dat1 (U2 m ρ) c) () c arr_whole1 (U3 m ρ c) _ (hF1 m ρ c)]
  refine sep_mono (deal1 (U2 m ρ) c (U3 m ρ c)).2 (Entails.of_eq ?_)
  unfold Pipeline.unscopedRest
  exact bigSep_congr fun b hb => by rw [hrest1 m ρ c b (Finset.mem_sdiff.mp hb).2]

set_option backward.isDefEq.respectTransparency.types false in
/-- The attention launch over the thread state. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := split1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KbRunC.lean ====
/-
  The program as the run of its six segments — two reshapes, the fused projection launch, the attention launch, a
  reshape, the output projection launch, a reshape — and the launch theorem over them: every weakly fair execution
  from any memory terminates, faults nowhere, and ends with every unscoped buffer at the last valuation of the chain;
  in particular the five argument arrays as launched.
-/
import proofs.«107029_g85925115723924_cont_9to1c4b_374_6_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's six segments in order. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

/-- The program is the run of its segments. -/
theorem main_run (c : Dev nD) : main (F := F) c = Pipeline.Seg.run (segs m ρ) := (main_chain c).trans (by chain_rfl)

set_option backward.isDefEq.respectTransparency.types false in
/-- Every weakly fair execution terminates, faults nowhere, and ends with every unscoped buffer of every core at
    the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- An argument array is written by no reshape and is no launch's output: the last valuation has it as launched. -/
theorem W6_arg (c : Dev nD) (r : Ref sig .tc) (h3 : r ∉ hostOps3_W) (h5 : r ≠ main_v5) (h2 : r ∉ hostOps2_W)
    (hv3 : r ≠ main_v3) (hv2 : r ≠ main_v2) (h0 : r ∉ hostOps0_W) :
    W6 m ρ c (Proc.devRef .tc r) = m ((c : Thread nD τ).loc r) :=
  (StableHlo.after_of_writes_sub hostOps3 _ hostOps3_writes h3).trans <| (W5_of_ne m ρ c r h5).trans <|
    (StableHlo.after_of_writes_sub hostOps2 _ hostOps2_writes h2).trans <| (W3_of_ne m ρ c r hv3).trans <|
    (W2_of_ne m ρ c r hv2).trans <| (StableHlo.after_of_writes_sub hostOps0 _ hostOps0_writes h0).trans rfl

/-- THE FRAME: every weakly fair execution terminates, faults nowhere, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide))⟩)
    (run_all m ρ)

/-- THE RUN with the result named: the result array ends at the last valuation's contents, the arguments as launched. -/
theorem run_out : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v6 (by decide)),
     (h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide))⟩)
    (run_all m ρ)

end Cert.Kernel.Hand

end
-- ==== Proof.KiReg0.lean ====
/-
  The fused projection launch (a tiled product plus bias): each window's block at a grid point, what the body
  leaves in the output block as a function of the three input blocks, the body's run on whole staging buffers, the
  proof data of the pipeline over the contents the launch finds, and the body obligation at every grid point.
-/
import proofs.«107029_g85925115723924_cont_9to1c4b_374_6_alg».proof.Proof.Gen.KernelIdeal.Launch
import proofs.«107029_g85925115723924_cont_9to1c4b_374_6_alg».proof.Proof.Gen.KernelIdeal.Skeleton
import proofs.«107029_g85925115723924_cont_9to1c4b_374_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes. -/
abbrev r0_a : Rect S512x1024 := Rect.unit (s := S512x1024) ![0, 0] S512x1024.size inb_S512x1024_S512x1024_0_0
abbrev r0_b : Rect S1024x1024 := Rect.unit (s := S1024x1024) ![0, 0] S1024x1024.size inb_S1024x1024_S1024x1024_0_0
abbrev r0_c : Rect S1x1024 := Rect.unit (s := S1x1024) ![0, 0] S1x1024.size inb_S1x1024_S1x1024_0_0

/-- The output block after the body: its one store, of the product of the row block and the column block plus the bias row. -/
def out0_3 (x0 : Vec F S512x1024 .f32) (x1 : Vec F S1024x1024 .f32) (x2 : Vec F S1x1024 .f32) : Vec F S512x1024 .bf16 :=
  View.canon [⟨r0_a, k0_pay1 (View.ld x0 r0_a) (View.ld x1 r0_b) (View.ld x2 r0_c)⟩]

/-- The one store covers the block. -/
theorem cover0_3 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging buffers, the inputs' at given contents and the output's at anything, runs to its return
    leaving the inputs as they were and the output at out0_3 of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mm_bias_kernel i arg2 harg2 arg3 harg3 arg4 harg4 arg5 harg5) K := by
  simp only [cc0__mm_bias_kernel_eq_skeleton]; unfold cc0__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The pipeline's proof data on core c: the arrays as the launch finds them; after the body at point t each input's
    buffer at its block and the output's at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiReg1.lean ====
/-
  The attention launch: each window's block at a grid point (a 256-row block of one head pair's queries; the whole
  2048-row key and value column blocks of that head pair), what the body leaves in the output block — two stores, one
  per head of the pair, each the masked softmax attention of its 64 columns —, the body's run on whole staging buffers,
  the proof data of the pipeline over the contents the launch finds, and the body obligation at every grid point.
-/
import proofs.«107029_g85925115723924_cont_9to1c4b_374_6_alg».proof.Proof.Gen.KernelIdeal.Launch
import proofs.«107029_g85925115723924_cont_9to1c4b_374_6_alg».proof.Proof.Gen.KernelIdeal.Skeleton
import proofs.«107029_g85925115723924_cont_9to1c4b_374_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it is fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: the query block whole; the left and right 64 columns of the key and
    value blocks and of the output block. -/
abbrev r1_q : Rect S256x128 := Rect.unit (s := S256x128) ![0, 0] S256x128.size inb_S256x128_S256x128_0_0
abbrev r1_kl : Rect S2048x128 := Rect.unit (s := S2048x128) ![0, 0] S2048x64.size inb_S2048x128_S2048x64_0_0
abbrev r1_kr : Rect S2048x128 := Rect.unit (s := S2048x128) ![0, 64] S2048x64.size inb_S2048x128_S2048x64_0_64
abbrev r1_ol : Rect S256x128 := Rect.unit (s := S256x128) ![0, 0] S256x64.size inb_S256x128_S256x64_0_0
abbrev r1_or : Rect S256x128 := Rect.unit (s := S256x128) ![0, 64] S256x64.size inb_S256x128_S256x64_0_64

/-- The output block after the body: its two stores, last first — the right 64 columns hold the second head's
    attention, the left 64 the first head's. -/
def out1_3 (i : grid1.Coords) (x0 : Vec F S256x128 .bf16) (x1 : Vec F S2048x128 .bf16) (x2 : Vec F S2048x128 .bf16) : Vec F S256x128 .bf16 :=
  View.canon [⟨r1_or, k1_pay1 (k1_pay2 i) (k1_pay5 (View.ld x0 r1_q)) (k1_pay6 (View.ld x1 r1_kr)) (k1_pay7 (View.ld x2 r1_kr)) (constant S256x2048 .f32 0x00000000#32)⟩,
    ⟨r1_ol, k1_pay4 i (View.ld x0 r1_q) (View.ld x1 r1_kl) (View.ld x2 r1_kl)⟩]

/-- The two stores tile the block. -/
theorem cover1_3 (p0 : Vec F S256x64 .bf16) (p1 : Vec F S256x64 .bf16) (y : S256x128.Idx) :
    ∃ pc ∈ ([⟨r1_or, p0⟩, ⟨r1_ol, p1⟩] : List (View.Piece (Elt F) S256x128 .bf16)), y ∈ pc.1.set :=
  View.cover_of_tiled [⟨r1_or, p0⟩, ⟨r1_ol, p1⟩] S256x64.size (by rfl) y

set_option maxHeartbeats 1000000 in
/-- The body on whole staging buffers, the inputs' at given contents and the output's at anything, runs to its return
    leaving the inputs as they were and the output at out1_3 of them. -/
theorem sound_kernel1 (c : Dev nD) (E : Set ℕ) (i : grid1.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 i x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

/-- The pipeline's proof data on core c: the arrays as the launch finds them; after the body at point t each input's
    buffer at its block and the output's at out1_3 of the input blocks; nothing owed. The three input windows read ONE array (the fused
    projection), so its full share is dealt among them: a half, a quarter, a quarter. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiReg2.lean ====
/-
  The output projection launch (a tiled product plus bias): each window's block at a grid point, what the body
  leaves in the output block as a function of the three input blocks, the body's run on whole staging buffers, the
  proof data of the pipeline over the contents the launch finds, and the body obligation at every grid point.
-/
import proofs.«107029_g85925115723924_cont_9to1c4b_374_6_alg».proof.Proof.Gen.KernelIdeal.Launch
import proofs.«107029_g85925115723924_cont_9to1c4b_374_6_alg».proof.Proof.Gen.KernelIdeal.Skeleton
import proofs.«107029_g85925115723924_cont_9to1c4b_374_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it is fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body reads and writes. -/
abbrev r2_a : Rect S512x1024 := Rect.unit (s := S512x1024) ![0, 0] S512x1024.size inb_S512x1024_S512x1024_0_0
abbrev r2_b : Rect S1024x1024 := Rect.unit (s := S1024x1024) ![0, 0] S1024x1024.size inb_S1024x1024_S1024x1024_0_0
abbrev r2_c : Rect S1x1024 := Rect.unit (s := S1x1024) ![0, 0] S1x1024.size inb_S1x1024_S1x1024_0_0

/-- The output block after the body: its one store, of the product of the row block and the column block plus the bias row. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_b) (View.ld x2 r2_c)⟩]

/-- The one store covers the block. -/
theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole staging buffers, the inputs' at given contents and the output's at anything, runs to its return
    leaving the inputs as they were and the output at out2_3 of them. -/
theorem sound_kernel2 (c : Dev nD) (E : Set ℕ) (i : grid2.Coords) (arg2 : Memref sig .tc .vmem S512x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__mm_bias_kernel i arg2 harg2 arg3 harg3 arg4 harg4 arg5 harg5) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-- The pipeline's proof data on core c: the arrays as the launch finds them; after the body at point t each input's
    buffer at its block and the output's at out2_3 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRunA.lean ====
/-
  The whole run of the layer's program: its host reshapes and its three launches as segments over one thread state —
  every unscoped buffer of the core at a named valuation, the generator register, nothing owed. The valuations are a
  chain from the launch memory: a reshape stretch applies its operations; a launch replaces its output array by what
  its write-backs leave. The attention launch reads ONE array (the fused projection) through three input windows, so
  at its entry that array's full share is dealt among them and at its exit joined again. The run ends with every
  unscoped buffer at the last valuation.
-/
import proofs.«107029_g85925115723924_cont_9to1c4b_374_6_alg».proof.Proof.KiReg0
import proofs.«107029_g85925115723924_cont_9to1c4b_374_6_alg».proof.Proof.KiReg1
import proofs.«107029_g85925115723924_cont_9to1c4b_374_6_alg».proof.Proof.KiReg2
import proofs.«107029_g85925115723924_cont_9to1c4b_374_6_alg».proof.Proof.LibSharedInputs
import proofs.«107029_g85925115723924_cont_9to1c4b_374_6_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev W0 : Dev nD → Valuation τ sig (Elt F) := fun c b => (s₀ m ρ).mem ((c : Dev nD), b)
/-- After the two reshapes before the first launch. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the fused projection launch: its output array at what its write-backs leave. -/
def W2 (c : Dev nD) : Valuation τ sig (Elt F) :=
  Function.update (W1 m ρ c) (Proc.devRef .tc main_v2) ((dat0 (U1 m ρ) c).arrAt 3 cfg0.N)
abbrev U2 : (c : Dev nD) → (b : Ref sig .tc) → Buf (Elt F) ((c : Thread nD τ).loc b) := fun c b => W2 m ρ c b
/-- After the attention launch. -/
def W3 (c : Dev nD) : Valuation τ sig (Elt F) :=
  Function.update (W2 m ρ c) (Proc.devRef .tc main_v3) ((dat1 (U2 m ρ) c).arrAt 3 cfg1.N)
abbrev U3 : (c : Dev nD) → (b : Ref sig .tc) → Buf (Elt F) ((c : Thread nD τ).loc b) := fun c b => W3 m ρ c b
/-- After the bias reshape. -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b
/-- After the output projection launch. -/
def W5 (c : Dev nD) : Valuation τ sig (Elt F) :=
  Function.update (W4 m ρ c) (Proc.devRef .tc main_v5) ((dat2 (U4 m ρ) c).arrAt 3 cfg2.N)
abbrev U5 : (c : Dev nD) → (b : Ref sig .tc) → Buf (Elt F) ((c : Thread nD τ).loc b) := fun c b => W5 m ρ c b
/-- After the last reshape. -/
abbrev W6 : Dev nD → Valuation τ sig (Elt F) := fun c => StableHlo.after hostOps3 (W5 m ρ c)

theorem W2_out (c : Dev nD) : W2 m ρ c (Proc.devRef .tc main_v2) = (dat0 (U1 m ρ) c).arrAt 3 cfg0.N := by
  unfold W2; exact Function.update_self _ _ _
theorem W2_of_ne (c : Dev nD) (b : Ref sig .tc) (hb : b ≠ main_v2) : W2 m ρ c (Proc.devRef .tc b) = W1 m ρ c (Proc.devRef .tc b) := by
  unfold W2; exact Function.update_of_ne (StableHlo.devRef_ne_of_ne hb) _ _
theorem W3_out (c : Dev nD) : W3 m ρ c (Proc.devRef .tc main_v3) = (dat1 (U2 m ρ) c).arrAt 3 cfg1.N := by
  unfold W3; exact Function.update_self _ _ _
theorem W3_of_ne (c : Dev nD) (b : Ref sig .tc) (hb : b ≠ main_v3) : W3 m ρ c (Proc.devRef .tc b) = W2 m ρ c (Proc.devRef .tc b) := by
  unfold W3; exact Function.update_of_ne (StableHlo.devRef_ne_of_ne hb) _ _
theorem W5_out (c : Dev nD) : W5 m ρ c (Proc.devRef .tc main_v5) = (dat2 (U4 m ρ) c).arrAt 3 cfg2.N := by
  unfold W5; exact Function.update_self _ _ _
theorem W5_of_ne (c : Dev nD) (b : Ref sig .tc) (hb : b ≠ main_v5) : W5 m ρ c (Proc.devRef .tc b) = W4 m ρ c (Proc.devRef .tc b) := by
  unfold W5; exact Function.update_of_ne (StableHlo.devRef_ne_of_ne hb) _ _

/-! ## The proof data family and the thread state -/

abbrev adm' : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm' p) c
  | ⟨0, _⟩ => fun c => dat0 (U1 m ρ) c
  | ⟨1, _⟩ => fun c => dat1 (U2 m ρ) c
  | ⟨2, _⟩ => fun c => dat2 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

/-! ## The attention launch's one input array, dealt among its three windows -/

/-- The two distinct buffers behind the attention launch's four windows, each whole at the full share, are the four
    windows' arrays at their shares: the fused projection's full share is a half, a quarter and a quarter. -/
theorem deal1 (V : (c : Dev nD) → (b : Ref sig .tc) → Buf (Elt F) ((c : Thread nD τ).loc b)) (c : Dev nD)
    (Vb : (b : Ref sig .tc) → Buf (Elt F) ((c : Thread nD τ).loc b)) :
    (Pipeline.arrBufs spec1 c Vb : sProp 𝕄)
      ⊣⊢ bigSep Finset.univ fun w => ((((c : Thread nD τ)).loc (Pipeline.arrRef spec1 w)) ↦{(dat1 V c).share w} Vb (Pipeline.arrRef spec1 w) : sProp 𝕄) := by
  rw [bigSep_W1]
  unfold Pipeline.arrBufs
  have e : (bigSep ({main_v2, main_v3} : Finset (Ref sig .tc)) (fun b => (((c : Thread nD τ)).loc b) ↦{fullShare} Vb b) : sProp 𝕄)
      = iprop(((((c : Thread nD τ)).loc main_v2) ↦{fullShare} Vb main_v2) ∗ ((((c : Thread nD τ)).loc main_v3) ↦{fullShare} Vb main_v3)) := by
    rw [BI.bigSep_insert (by decide), BI.bigSep_singleton]; rfl
  rw [show (Finset.univ.image (Pipeline.arrRef spec1) : Finset (Ref sig .tc)) = {main_v2, main_v3} from by decide, e]
  rw [show (dat1 V c).share 0 = fullShare.left from rfl, show (dat1 V c).share 1 = fullShare.right.left from rfl,
    show (dat1 V c).share 2 = fullShare.right.right from rfl, show (dat1 V c).share 3 = fullShare from rfl]
  constructor
  · iintro ⟨H2, H3⟩
    ihave H := (pointsTo_share (PosShare.mem_left_op_right fullShare)).1 $$ H2
    icases H with ⟨HL, HR⟩
    ihave H' := (pointsTo_share (PosShare.mem_left_op_right fullShare.right)).1 $$ HR
    icases H' with ⟨HRL, HRR⟩
    isplitl [HL]; · iexact HL
    isplitl [HRL]; · iexact HRL
    isplitl [HRR]; · iexact HRR
    iexact H3
  · iintro ⟨HL, HRL, HRR, H3⟩
    isplitr [H3]
    · iapply (pointsTo_share (PosShare.mem_left_op_right fullShare)).2
      isplitl [HL]; · iexact HL
      iapply (pointsTo_share (PosShare.mem_left_op_right fullShare.right)).2
      isplitl [HRL]; · iexact HRL
      iexact HRR
    iexact H3

end Cert.KernelIdeal.Hand

end
-- ==== Proof.KiRunB.lean ====
/-
  The three launches as segments of the program's run: each entered from the thread state before it — every unscoped
  buffer at the valuation of that point — and left at the next. A launch takes its arrays out of the unscoped buffers
  at its entry and puts them back, the output at what its write-backs leave, at its exit. The attention launch's three
  input windows stand on one array: its full share is dealt among them at the entry and joined at the exit.
-/
import proofs.«107029_g85925115723924_cont_9to1c4b_374_6_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fused projection launch -/

theorem hF0 (c : Dev nD) (w : Fin cfg0.W) : (dat0 (U1 m ρ) c).arrAt w cfg0.N = U2 m ρ c (Pipeline.arrRef spec0 w) := by
  match w with
  | ⟨0, _⟩ => exact (((dat0 (U1 m ρ) c).arrAt_in 0 rfl _).trans (A_eq0 (U1 m ρ) c 0)).trans (W2_of_ne m ρ c main_v0 (by decide)).symm
  | ⟨1, _⟩ => exact (((dat0 (U1 m ρ) c).arrAt_in 1 rfl _).trans (A_eq0 (U1 m ρ) c 1)).trans (W2_of_ne m ρ c main_arg1 (by decide)).symm
  | ⟨2, _⟩ => exact (((dat0 (U1 m ρ) c).arrAt_in 2 rfl _).trans (A_eq0 (U1 m ρ) c 2)).trans (W2_of_ne m ρ c main_v1 (by decide)).symm
  | ⟨3, _⟩ => exact (W2_out m ρ c).symm
theorem hrest0 (c : Dev nD) : ∀ b, b ∉ Finset.univ.image (Pipeline.arrRef spec0) → U2 m ρ c b = U1 m ρ c b :=
  fun b hb => W2_of_ne m ρ c b fun h => hb (h ▸ Finset.mem_image.mpr ⟨3, Finset.mem_univ _, rfl⟩)

set_option backward.isDefEq.respectTransparency.types false in
/-- The launch over the thread state: its arrays split out of the unscoped buffers at its entry and put back at the
    exit contents; the generator register into the invariant and out; nothing owed. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The output projection launch -/

theorem hF2 (c : Dev nD) (w : Fin cfg2.W) : (dat2 (U4 m ρ) c).arrAt w cfg2.N = U5 m ρ c (Pipeline.arrRef spec2 w) := by
  match w with
  | ⟨0, _⟩ => exact (((dat2 (U4 m ρ) c).arrAt_in 0 rfl _).trans (A_eq2 (U4 m ρ) c 0)).trans (W5_of_ne m ρ c main_v3 (by decide)).symm
  | ⟨1, _⟩ => exact (((dat2 (U4 m ρ) c).arrAt_in 1 rfl _).trans (A_eq2 (U4 m ρ) c 1)).trans (W5_of_ne m ρ c main_arg3 (by decide)).symm
  | ⟨2, _⟩ => exact (((dat2 (U4 m ρ) c).arrAt_in 2 rfl _).trans (A_eq2 (U4 m ρ) c 2)).trans (W5_of_ne m ρ c main_v4 (by decide)).symm
  | ⟨3, _⟩ => exact (W5_out m ρ c).symm
theorem hrest2 (c : Dev nD) : ∀ b, b ∉ Finset.univ.image (Pipeline.arrRef spec2) → U5 m ρ c b = U4 m ρ c b :=
  fun b hb => W5_of_ne m ρ c b fun h => hb (h ▸ Finset.mem_image.mpr ⟨3, Finset.mem_univ _, rfl⟩)

set_option backward.isDefEq.respectTransparency.types false in
/-- The launch over the thread state: its arrays split out of the unscoped buffers at its entry and put back at the
    exit contents; the generator register into the invariant and out; nothing owed. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch -/

theorem hF1 (c : Dev nD) (w : Fin cfg1.W) : (dat1 (U2 m ρ) c).arrAt w cfg1.N = U3 m ρ c (Pipeline.arrRef spec1 w) := by
  match w with
  | ⟨0, _⟩ => exact (((dat1 (U2 m ρ) c).arrAt_in 0 rfl _).trans (A_eq1 (U2 m ρ) c 0)).trans (W3_of_ne m ρ c main_v2 (by decide)).symm
  | ⟨1, _⟩ => exact (((dat1 (U2 m ρ) c).arrAt_in 1 rfl _).trans (A_eq1 (U2 m ρ) c 1)).trans (W3_of_ne m ρ c main_v2 (by decide)).symm
  | ⟨2, _⟩ => exact (((dat1 (U2 m ρ) c).arrAt_in 2 rfl _).trans (A_eq1 (U2 m ρ) c 2)).trans (W3_of_ne m ρ c main_v2 (by decide)).symm
  | ⟨3, _⟩ => exact (W3_out m ρ c).symm
theorem hrest1 (c : Dev nD) : ∀ b, b ∉ Finset.univ.image (Pipeline.arrRef spec1) → U3 m ρ c b = U2 m ρ c b :=
  fun b hb => W3_of_ne m ρ c b fun h => hb (h ▸ Finset.mem_image.mpr ⟨3, Finset.mem_univ _, rfl⟩)

set_option backward.isDefEq.respectTransparency.types false in
/-- ENTRY: the core's unscoped buffers at the entry valuation are the launch's arrays, the shared one dealt, and the rest. -/
theorem split1 (c : Dev nD) : (StableHlo.held (c : Thread nD τ) (Pipeline.ucRefs τ sig) (W2 m ρ c) : sProp 𝕄)
    ⊢ iprop((dat1 (U2 m ρ) c).arrays ((dat1 (U2 m ρ) c).arrAt · 0) ∗ Pipeline.unscopedRest spec1 c (U2 m ρ c)) := by
  rw [← Pipeline.unscopedBufs_held c (W2 m ρ c), Pipeline.unscopedBufs_split₀ (fun _ : Unit => cfg1) () winFacts₀1.arr_unscoped c (U2 m ρ c)]
  exact sep_mono (((deal1 (U2 m ρ) c (U2 m ρ c)).1).trans (Entails.of_eq
    (Pipeline.arrays_eq_deal (fun _ : Unit => cfg1) (fun _ c => dat1 (U2 m ρ) c) () c arr_whole1 (U2 m ρ c) _ (fun w => A_eq1 (U2 m ρ) c w)).symm)) .rfl

set_option backward.isDefEq.respectTransparency.types false in
/-- EXIT: the launch's arrays at their final contents, the shared one joined again, and the rest are the core's
    unscoped buffers at the exit valuation. -/
theorem join1 (c : Dev nD) : iprop((dat1 (U2 m ρ) c).arrays ((dat1 (U2 m ρ) c).arrAt · cfg1.N) ∗ Pipeline.unscopedRest spec1 c (U2 m ρ c))
    ⊢ (StableHlo.held (c : Thread nD τ) (Pipeline.ucRefs τ sig) (W3 m ρ c) : sProp 𝕄) := by
  rw [← Pipeline.unscopedBufs_held c (W3 m ρ c), Pipeline.unscopedBufs_split₀ (fun _ : Unit => cfg1) () winFacts₀1.arr_unscoped c (U3 m ρ c),
    Pipeline.arrays_eq_deal (fun _ : Unit => cfg1) (fun _ c => dat1 (U2 m ρ) c) () c arr_whole1 (U3 m ρ c) _ (hF1 m ρ c)]
  refine sep_mono (deal1 (U2 m ρ) c (U3 m ρ c)).2 (Entails.of_eq ?_)
  unfold Pipeline.unscopedRest
  exact bigSep_congr fun b hb => by rw [hrest1 m ρ c b (Finset.mem_sdiff.mp hb).2]

set_option backward.isDefEq.respectTransparency.types false in
/-- The attention launch over the thread state. -/
def reg1 : Pipeline.RegionSeg (pcfgs (F := F)) adm' (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := split1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KiRunC.lean ====
/-
  The program as the run of its six segments — two reshapes, the fused projection launch, the attention launch, a
  reshape, the output projection launch, a reshape — and the launch theorem over them: every weakly fair execution
  from any memory terminates, faults nowhere, and ends with every unscoped buffer at the last valuation of the chain;
  in particular the five argument arrays as launched.
-/
import proofs.«107029_g85925115723924_cont_9to1c4b_374_6_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's six segments in order. -/
abbrev segs : List (Pipeline.Seg (pcfgs (F := F)) adm' (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

/-- The program is the run of its segments. -/
theorem main_run (c : Dev nD) : main (F := F) c = Pipeline.Seg.run (segs m ρ) := (main_chain c).trans (by chain_rfl)

set_option backward.isDefEq.respectTransparency.types false in
/-- Every weakly fair execution terminates, faults nowhere, and ends with every unscoped buffer of every core at
    the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- An argument array is written by no reshape and is no launch's output: the last valuation has it as launched. -/
theorem W6_arg (c : Dev nD) (r : Ref sig .tc) (h3 : r ∉ hostOps3_W) (h5 : r ≠ main_v5) (h2 : r ∉ hostOps2_W)
    (hv3 : r ≠ main_v3) (hv2 : r ≠ main_v2) (h0 : r ∉ hostOps0_W) :
    W6 m ρ c (Proc.devRef .tc r) = m ((c : Thread nD τ).loc r) :=
  (StableHlo.after_of_writes_sub hostOps3 _ hostOps3_writes h3).trans <| (W5_of_ne m ρ c r h5).trans <|
    (StableHlo.after_of_writes_sub hostOps2 _ hostOps2_writes h2).trans <| (W3_of_ne m ρ c r hv3).trans <|
    (W2_of_ne m ρ c r hv2).trans <| (StableHlo.after_of_writes_sub hostOps0 _ hostOps0_writes h0).trans rfl

/-- THE FRAME: every weakly fair execution terminates, faults nowhere, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide))⟩)
    (run_all m ρ)

/-- THE RUN with the result named: the result array ends at the last valuation's contents, the arguments as launched. -/
theorem run_out : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v6 (by decide)),
     (h c _ (mem_uc main_arg0 (by decide))).trans (W6_arg m ρ c main_arg0 (by decide) (by decide) (by decide) (by decide) (by decide) (by decide)),
     (h c _ (mem_uc main_arg1 (by decide))).trans (W6_arg m ρ c main_arg1 (by decide) (by decide) (by decide) (by decide) (by decide) (by decide)),
     (h c _ (mem_uc main_arg2 (by decide))).trans (W6_arg m ρ c main_arg2 (by decide) (by decide) (by decide) (by decide) (by decide) (by decide)),
     (h c _ (mem_uc main_arg3 (by decide))).trans (W6_arg m ρ c main_arg3 (by decide) (by decide) (by decide) (by decide) (by decide) (by decide)),
     (h c _ (mem_uc main_arg4 (by decide))).trans (W6_arg m ρ c main_arg4 (by decide) (by decide) (by decide) (by decide) (by decide) (by decide))⟩)
    (run_all m ρ)

end Cert.KernelIdeal.Hand

end
-- ==== Proof.KiValueHost.lean ====
/-
  The program's host reshapes, read at an index, and the arrays no segment writes.

  Before the first launch the token axes of the input are merged, [2, 2048, 1024] → [4096, 1024], and the projection's
  bias gets a unit row axis, [3072] → [1, 3072]; before the last launch the output bias likewise, [1024] → [1, 1024];
  after it the token axis is split again, [4096, 1024] → [2, 2048, 1024]. Row-major order keeps every entry: token
  (b, s) is row b·2048 + s. The five argument arrays are written by no segment, so wherever a launch reads one it
  reads the launch memory.
-/
import proofs.«107029_g85925115723924_cont_9to1c4b_374_6_alg».proof.Proof.KiRunA
import Idealize.ShloMosaic.Lib.ValueLayout
import Idealize.ShloMosaic.Lib.Pipeline.Value

noncomputable section

namespace Cert.KernelIdeal.HandV

open Cert.KernelIdeal Cert.KernelIdeal.Gen Cert.KernelIdeal.Hand
open Idealize.ShloMosaic Idealize.ShloMosaic.ValueIdx Idealize.ShloMosaic.TcCoe

/-- Row b·2048 + s of the merged array is token (b, s). -/
def rowOf (b : Fin 2) (s : Fin 2048) : Fin 4096 := ⟨b.val * 2048 + s.val, by omega⟩

section Layout
variable {α : Type}

/-- Merging the two token axes: entry (b·2048 + s, k) of the merged array is entry (b, s, k). -/
theorem merge_tokens_apply (x : (⟨3, ![2, 2048, 1024]⟩ : Shape).Idx → α)
    (h : (⟨3, ![2, 2048, 1024]⟩ : Shape).ShapeCasts ⟨2, ![4096, 1024]⟩) (b : Fin 2) (s : Fin 2048) (k : Fin 1024) :
    shapeCast ⟨2, ![4096, 1024]⟩ x h (ix2 (rowOf b s) k) = x (ix3 b s k) :=
  shapeCast_apply x h _ _ (by
    rw [Shape.rowMajor_val_three, Shape.rowMajor_val_two]
    show (b.val * 2048 + s.val) * 1024 + k.val = (b.val * 2048 + s.val) * 1024 + k.val
    rfl)

/-- Splitting the token axis again: entry (b, s, k) is entry (b·2048 + s, k) of the merged array. -/
theorem split_tokens_apply (x : (⟨2, ![4096, 1024]⟩ : Shape).Idx → α)
    (h : (⟨2, ![4096, 1024]⟩ : Shape).ShapeCasts ⟨3, ![2, 2048, 1024]⟩) (b : Fin 2) (s : Fin 2048) (k : Fin 1024) :
    shapeCast ⟨3, ![2, 2048, 1024]⟩ x h (ix3 b s k) = x (ix2 (rowOf b s) k) :=
  shapeCast_apply x h _ _ (by
    rw [Shape.rowMajor_val_three, Shape.rowMajor_val_two]
    show (b.val * 2048 + s.val) * 1024 + k.val = (b.val * 2048 + s.val) * 1024 + k.val
    rfl)

end Layout

variable (m : (ℓ : Loc nD τ sig) → Buf (Elt Ideal) ℓ) (ρ : Dev nD → PrngReg) (c : Dev nD)

/-! ## Before the first launch -/

/-- The merged input is the reshape of the first argument. -/
theorem W1_tokens :
    (W1 (F := Ideal) m ρ c (Proc.devRef .tc main_v0) : S4096x1024.Idx → EReal)
      = shapeCast S4096x1024 (m ((c.tc : Thread nD τ).loc main_arg0)) shapeCasts_S2x2048x1024_S4096x1024 := by
  show StableHlo.after hostOps0 _ (Proc.devRef .tc main_v0) = _
  after_results
  rfl

/-- The merged input at row b·2048 + s, column k, is the input at token (b, s), feature k. -/
theorem W1_tokens_at (b : Fin 2) (s : Fin 2048) (k : Fin 1024) :
    (W1 (F := Ideal) m ρ c (Proc.devRef .tc main_v0) : S4096x1024.Idx → EReal) (ix2 (rowOf b s) k)
      = m ((c.tc : Thread nD τ).loc main_arg0) (ix3 b s k) := by
  rw [W1_tokens]
  exact merge_tokens_apply _ _ b s k

/-- The projection's bias as a row is the reshape of the third argument. -/
theorem W1_bias :
    (W1 (F := Ideal) m ρ c (Proc.devRef .tc main_v1) : S1x3072.Idx → EReal)
      = shapeCast S1x3072 (m ((c.tc : Thread nD τ).loc main_arg2)) shapeCasts_S3072_S1x3072 := by
  show StableHlo.after hostOps0 _ (Proc.devRef .tc main_v1) = _
  after_results
  rfl

/-- The bias row at column e is the bias at e. -/
theorem W1_bias_at (e : Fin 3072) :
    (W1 (F := Ideal) m ρ c (Proc.devRef .tc main_v1) : S1x3072.Idx → EReal) (ix2 (0 : Fin 1) e)
      = m ((c.tc : Thread nD τ).loc main_arg2) (ix1 e) := by
  rw [W1_bias]
  exact shapeCast_a_1a_apply _ _ (0 : Fin 1) e

/-- The two reshapes leave every array but their results as launched. -/
theorem W1_keep (r : Ref sig .tc) (h : r ∉ hostOps0_W) :
    W1 (F := Ideal) m ρ c (Proc.devRef .tc r) = m ((c.tc : Thread nD τ).loc r) :=
  StableHlo.after_of_writes_sub hostOps0 _ hostOps0_writes h

/-! ## Before the last launch -/

/-- The bias reshape leaves every array but its result. -/
theorem W4_keep (r : Ref sig .tc) (h : r ∉ hostOps2_W) :
    W4 (F := Ideal) m ρ c (Proc.devRef .tc r) = W3 (F := Ideal) m ρ c (Proc.devRef .tc r) :=
  StableHlo.after_of_writes_sub hostOps2 _ hostOps2_writes h

/-- An argument array after the first two launches is as launched. -/
theorem W3_arg (r : Ref sig .tc) (h2 : r ≠ main_v2) (h3 : r ≠ main_v3) (h : r ∉ hostOps0_W) :
    W3 (F := Ideal) m ρ c (Proc.devRef .tc r) = m ((c.tc : Thread nD τ).loc r) := by
  rw [W3_of_ne m ρ c r h3, W2_of_ne m ρ c r h2]
  exact W1_keep m ρ c r h

/-- The output bias as a row is the reshape of the fifth argument. -/
theorem W4_bias :
    (W4 (F := Ideal) m ρ c (Proc.devRef .tc main_v4) : S1x1024.Idx → EReal)
      = shapeCast S1x1024 (W3 (F := Ideal) m ρ c (Proc.devRef .tc main_arg4)) shapeCasts_S1024_S1x1024 := by
  show StableHlo.after hostOps2 _ (Proc.devRef .tc main_v4) = _
  after_results
  rfl

/-- The output bias row at column e is the output bias at e. -/
theorem W4_bias_at (e : Fin 1024) :
    (W4 (F := Ideal) m ρ c (Proc.devRef .tc main_v4) : S1x1024.Idx → EReal) (ix2 (0 : Fin 1) e)
      = m ((c.tc : Thread nD τ).loc main_arg4) (ix1 e) := by
  rw [W4_bias, W3_arg m ρ c main_arg4 (by decide) (by decide) (by decide)]
  exact shapeCast_a_1a_apply _ _ (0 : Fin 1) e

/-- The output weight where the last launch reads it is the fourth argument. -/
theorem W4_weight :
    W4 (F := Ideal) m ρ c (Proc.devRef .tc main_arg3) = m ((c.tc : Thread nD τ).loc main_arg3) := by
  rw [W4_keep m ρ c main_arg3 (by decide)]
  exact W3_arg m ρ c main_arg3 (by decide) (by decide) (by decide)

/-! ## After the last launch -/

/-- The result is the reshape of the last launch's output. -/
theorem W6_result :
    (W6 (F := Ideal) m ρ c (Proc.devRef .tc main_v6) : S2x2048x1024.Idx → EReal)
      = shapeCast S2x2048x1024 (W5 (F := Ideal) m ρ c (Proc.devRef .tc main_v5)) shapeCasts_S4096x1024_S2x2048x1024 := by
  show StableHlo.after hostOps3 _ (Proc.devRef .tc main_v6) = _
  after_results
  rfl

/-- The result at token (b, i), column e, is the last launch's output at row b·2048 + i, column e. -/
theorem W6_result_at (b : Fin 2) (i : Fin 2048) (e : Fin 1024) :
    (W6 (F := Ideal) m ρ c (Proc.devRef .tc main_v6) : S2x2048x1024.Idx → EReal) (ix3 b i e)
      = (W5 (F := Ideal) m ρ c (Proc.devRef .tc main_v5) : S4096x1024.Idx → EReal) (ix2 (rowOf b i) e) := by
  rw [W6_result]
  exact split_tokens_apply _ _ b i e

end Cert.KernelIdeal.HandV

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.LibSoftmaxRows.lean ====
/-
  Softmax over the rows of a score block, read at an index, on the extended reals.

  For a block of scores s of shape [a, b]:
  * the row maximum — a max-reduction over the columns from the -inf word, kept as a column [a, 1] and broadcast back to
    [a, b] — read at (q, k) is the largest score of row q, folded from the bottom element (`rowTop`);
  * the row sum — an add-reduction from the zero word, kept and broadcast the same way — read at (q, k) is Σ_k' s[q, k'];
  * so exp(s − rowmax) / rowsum(exp(s − rowmax)) at (q, k) is the softmax weight of column k among row q's scores
    (`rowWeight`): the form jnp's `p = exp(s - max); p / sum(p)` takes in a kernel body.
  Beside them, the one law of the extended reals such kernels need when a constant scale is moved across an inner
  product: a nonnegative finite factor distributes over any finite sum, whatever the summands.
-/
import proofs.«107029_g85925115723924_cont_9to1c4b_374_6_alg».proof.Proof.LibRowSum
import proofs.«107029_g85925115723924_cont_9to1c4b_374_6_alg».proof.Proof.LibKeepdimsLayout
import proofs.«107029_g85925115723924_cont_9to1c4b_374_6_alg».proof.Proof.LibBitFolds
import Idealize.ShloMosaic.PureOps.Ideal.Laws
import Idealize.ShloMosaic.Lib.ValueIdx
import Idealize.ShloMosaic.Lib.Pipeline.Value
import Mathlib.Data.EReal.Operations
import Mathlib.Data.Finset.Fold

noncomputable section

open scoped BigOperators

namespace Cert.SoftmaxLib

open Idealize.ShloMosaic Idealize.ShloMosaic.ValueIdx

/-- The largest of finitely many extended reals, from the bottom element. -/
def rowTop {n : ℕ} (s : Fin n → EReal) : EReal := (Finset.univ : Finset (Fin n)).fold max (⊥ : EReal) s

/-- The softmax weight of entry k among s: exp(s_k − top) / Σ_k' exp(s_k' − top). -/
def rowWeight {n : ℕ} (s : Fin n → EReal) (k : Fin n) : EReal :=
  Ideal.div (Ideal.exp (s k - rowTop s)) (∑ k' : Fin n, Ideal.exp (s k' - rowTop s))

/-- A nonnegative finite factor distributes over a finite sum of extended reals; no summand need be finite. -/
theorem sum_mul_const {c : EReal} (h0 : 0 ≤ c) (htop : c ≠ ⊤) {n : ℕ} (t : Fin n → EReal) :
    ∑ e : Fin n, t e * c = (∑ e : Fin n, t e) * c := by
  classical
  refine Finset.induction_on (Finset.univ : Finset (Fin n)) ?_ ?_
  · simp
  · intro a s ha ih
    rw [Finset.sum_insert ha, Finset.sum_insert ha, ih, EReal.right_distrib_of_nonneg_of_ne_top h0 htop]

/-- Scaling the left factors of an inner product by such a constant scales the inner product. -/
theorem scaled_inner {c : EReal} (h0 : 0 ≤ c) (htop : c ≠ ⊤) {n : ℕ} (x y : Fin n → EReal) :
    ∑ e : Fin n, (x e * c) * y e = (∑ e : Fin n, x e * y e) * c := by
  rw [← sum_mul_const h0 htop]
  refine Finset.sum_congr rfl fun e _ => ?_
  rw [mul_assoc, mul_comm c, ← mul_assoc]

variable {a b : ℕ}

/-- The row maximum, kept as a column and broadcast over the row, read at (q, k). -/
theorem rowMax_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .maximumf [1] ⟨1, ![a]⟩ s 0xFF800000#32 h hφ hacc) hc) hb (ix2 q k)
      = rowTop (fun k' : Fin b => s (ix2 q k')) := by
  rw [Cert.LayoutKeepdims.broadcastTo_a1_ab_apply, Cert.LayoutKeepdims.shapeCast_a_a1_apply,
    Ideal.multiReduction_maximumf_single]
  unfold rowTop
  rw [Ideal.ofBits_def, Cert.BitFolds.ofBits_neg_inf_f32]
  refine congrArg (fun f => (Finset.univ : Finset (Fin b)).fold max (⊥ : EReal) f) ?_
  funext k'
  exact congrArg s (Idealize.ShloMosaic.RowSum.lift_row h q k')

/-- The row sum, kept as a column and broadcast over the row, read at (q, k). -/
theorem rowSum_at (s : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    broadcastTo ⟨2, ![a, b]⟩ (shapeCast ⟨2, ![a, 1]⟩ (multiReduction .add [1] ⟨1, ![a]⟩ s 0x00000000#32 h hφ hacc) hc) hb (ix2 q k)
      = ∑ k' : Fin b, s (ix2 q k') := by
  rw [Cert.LayoutKeepdims.broadcastTo_a1_ab_apply, Cert.LayoutKeepdims.shapeCast_a_a1_apply,
    Idealize.ShloMosaic.RowSum.rowSum_apply]

/-- Scores minus their row maximum, exponentiated, at (q, k). -/
theorem shifted_exp_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (q : Fin a) (k : Fin b) :
    exp (subf s (broadcastTo ⟨2, ![a, b]⟩ (shapeCast ⟨2, ![a, 1]⟩ (multiReduction .maximumf [1] ⟨1, ![a]⟩ s 0xFF800000#32 h hφ hacc) hc) hb)) (ix2 q k)
      = Ideal.exp (s (ix2 q k) - rowTop (fun k' : Fin b => s (ix2 q k'))) := by
  show Ideal.exp (s (ix2 q k) - _) = _
  rw [rowMax_at]

/-- THE WEIGHTS: exp(s − rowmax) / rowsum(exp(s − rowmax)) at (q, k) is the softmax weight of k in row q. -/
theorem weights_at (s : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hφ' : FKind.Formats .f32) (hacc' : (0x00000000#32 : BitVec 32) = 0x00000000#32)
    (hc : (⟨1, ![a]⟩ : Shape).ShapeCasts ⟨2, ![a, 1]⟩) (hb : (⟨2, ![a, 1]⟩ : Shape).Broadcasts ⟨2, ![a, b]⟩)
    (q : Fin a) (k : Fin b) :
    divf (exp (subf s (broadcastTo ⟨2, ![a, b]⟩ (shapeCast ⟨2, ![a, 1]⟩ (multiReduction .maximumf [1] ⟨1, ![a]⟩ s 0xFF800000#32 h hφ hacc) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 h hφ hacc) hc) hb)))
          0x00000000#32 h hφ' hacc') hc) hb) (ix2 q k)
      = rowWeight (fun k' : Fin b => s (ix2 q k')) k := by
  rw [divf_apply, rowSum_at, shifted_exp_at]
  unfold rowWeight
  refine congrArg (Ideal.div _) ?_
  exact Finset.sum_congr rfl fun k' _ => shifted_exp_at s h hφ hacc hc hb q k'

end Cert.SoftmaxLib

end
-- ==== Proof.Spec.lean ====
/-
  Causal multi-head self-attention over a batch of 2 sequences of 2048 tokens, model width 1024, 16 heads of width 64,
  as functions on the extended reals, entry by entry.

  * `qkv`: the fused projection — token (b, s) of the input times the [1024, 3072] weight, plus the bias: columns
    0..1023 are the queries, 1024..2047 the keys, 2048..3071 the values, each split into 16 heads of 64 columns.
  * `srow`: for head h and query token i, the causally masked, scaled scores against every key token j — the inner
    product of query and key over the head's 64 columns times the scale 1/8 where j ≤ i, the large negative fill elsewhere.
  * the attention context in two arrangements of one quotient: `ctxK` divides the weighted sum of the values by the
    sum of the exponentials, (Σ_j p_j · v_j) / (Σ_j p_j) with p_j = exp(s_j − max s); `ctxR` weighs each value by its
    softmax weight first, Σ_j (p_j / Σ p) · v_j.
  * `outOf`: the output projection of the 16 heads' contexts laid side by side, times the [1024, 1024] weight, plus bias.
-/
import proofs.«107029_g85925115723924_cont_9to1c4b_374_6_alg».proof.Proof.LibSoftmaxRows
import Idealize.ShloMosaic.PureOps.Ideal
import Idealize.ShloMosaic.Lib.ValueIdx

noncomputable section

open scoped BigOperators

namespace Cert.Attn

open Idealize.ShloMosaic Idealize.ShloMosaic.ValueIdx Cert.SoftmaxLib

/-- The scale 1/8 = 1/sqrt 64, as the f32 word both programs print. -/
def scaleC : EReal := Ideal.ofBits .f32 0x3E000000#32
/-- The fill -1e30 of masked scores, as the f32 word both programs print. -/
def fillC : EReal := Ideal.ofBits .f32 0xF149F2CA#32

/-- Column of head h's d-th query / key / value feature in the fused projection. -/
def qcol (h : Fin 16) (d : Fin 64) : Fin 3072 := ⟨h.val * 64 + d.val, by omega⟩
def kcol (h : Fin 16) (d : Fin 64) : Fin 3072 := ⟨1024 + h.val * 64 + d.val, by omega⟩
def vcol (h : Fin 16) (d : Fin 64) : Fin 3072 := ⟨2048 + h.val * 64 + d.val, by omega⟩

/-- The fused projection at token (b, s), column e. -/
def qkv (x : (⟨3, ![2, 2048, 1024]⟩ : Shape).Idx → EReal) (W : (⟨2, ![1024, 3072]⟩ : Shape).Idx → EReal)
    (bq : (⟨1, ![3072]⟩ : Shape).Idx → EReal) (b : Fin 2) (s : Fin 2048) (e : Fin 3072) : EReal :=
  (∑ d : Fin 1024, x (ix3 b s d) * W (ix2 d e)) + bq (ix1 e)

variable (Q : Fin 2 → Fin 2048 → Fin 3072 → EReal)

/-- Head h's masked, scaled scores of query token i against every key token j of sequence b. -/
def srow (b : Fin 2) (h : Fin 16) (i : Fin 2048) : Fin 2048 → EReal := fun j =>
  if j.val ≤ i.val then (∑ d : Fin 64, Q b i (qcol h d) * Q b j (kcol h d)) * scaleC else fillC

/-- exp(score − row maximum). -/
def pexp (b : Fin 2) (h : Fin 16) (i : Fin 2048) (j : Fin 2048) : EReal :=
  Ideal.exp (srow Q b h i j - rowTop (srow Q b h i))

/-- The context, the quotient taken last: (Σ_j p_j · v_j) / Σ_j p_j. -/
def ctxK (b : Fin 2) (i : Fin 2048) (h : Fin 16) (d : Fin 64) : EReal :=
  Ideal.div (∑ j : Fin 2048, pexp Q b h i j * Q b j (vcol h d)) (∑ j : Fin 2048, pexp Q b h i j)

/-- The context, the softmax weights taken first: Σ_j (p_j / Σ p) · v_j. -/
def ctxR (b : Fin 2) (i : Fin 2048) (h : Fin 16) (d : Fin 64) : EReal :=
  ∑ j : Fin 2048, rowWeight (srow Q b h i) j * Q b j (vcol h d)

/-- Head and feature of a context column. -/
def headOf (c : Fin 1024) : Fin 16 := ⟨c.val / 64, by omega⟩
def featOf (c : Fin 1024) : Fin 64 := ⟨c.val % 64, by omega⟩

/-- The output projection of a context C at token (b, i), column e. -/
def outOf (C : Fin 2 → Fin 2048 → Fin 16 → Fin 64 → EReal) (Wo : (⟨2, ![1024, 1024]⟩ : Shape).Idx → EReal)
    (bo : (⟨1, ![1024]⟩ : Shape).Idx → EReal) (b : Fin 2) (i : Fin 2048) (e : Fin 1024) : EReal :=
  (∑ c : Fin 1024, C b i (headOf c) (featOf c) * Wo (ix2 c e)) + bo (ix1 e)

/-- The whole layer, the kernel's arrangement. -/
def specK (x : (⟨3, ![2, 2048, 1024]⟩ : Shape).Idx → EReal) (W : (⟨2, ![1024, 3072]⟩ : Shape).Idx → EReal)
    (bq : (⟨1, ![3072]⟩ : Shape).Idx → EReal) (Wo : (⟨2, ![1024, 1024]⟩ : Shape).Idx → EReal)
    (bo : (⟨1, ![1024]⟩ : Shape).Idx → EReal) (b : Fin 2) (i : Fin 2048) (e : Fin 1024) : EReal :=
  outOf (ctxK (qkv x W bq)) Wo bo b i e

/-- The whole layer, the reference's arrangement. -/
def specR (x : (⟨3, ![2, 2048, 1024]⟩ : Shape).Idx → EReal) (W : (⟨2, ![1024, 3072]⟩ : Shape).Idx → EReal)
    (bq : (⟨1, ![3072]⟩ : Shape).Idx → EReal) (Wo : (⟨2, ![1024, 1024]⟩ : Shape).Idx → EReal)
    (bo : (⟨1, ![1024]⟩ : Shape).Idx → EReal) (b : Fin 2) (i : Fin 2048) (e : Fin 1024) : EReal :=
  outOf (ctxR (qkv x W bq)) Wo bo b i e

end Cert.Attn

end
-- ==== Proof.SpecRow.lean ====
/-
  One query row of causal attention, as a function of that row's 64 query features and the 2048 × 64 key and value
  features of its sequence: the masked scaled scores of the row against every key token, and the quotient
  (Σ_j exp(s_j − max s) · v_j) / Σ_j exp(s_j − max s). The layer's context is this function of the fused projection's
  columns of one head.
-/
import proofs.«107029_g85925115723924_cont_9to1c4b_374_6_alg».proof.Proof.Spec

noncomputable section

open scoped BigOperators

namespace Cert.Attn

open Idealize.ShloMosaic Idealize.ShloMosaic.ValueIdx Cert.SoftmaxLib

/-- The masked, scaled scores of a query row at position i of its sequence against every key token j. -/
def scoreRow (qrow : Fin 64 → EReal) (K : Fin 2048 → Fin 64 → EReal) (i : ℕ) : Fin 2048 → EReal := fun j =>
  if j.val ≤ i then (∑ d : Fin 64, qrow d * K j d) * scaleC else fillC

/-- The row's context feature f: (Σ_j p_j · V j f) / Σ_j p_j with p_j = exp(s_j − max s). -/
def attnRow (qrow : Fin 64 → EReal) (K V : Fin 2048 → Fin 64 → EReal) (i : ℕ) (f : Fin 64) : EReal :=
  Ideal.div (∑ j : Fin 2048, Ideal.exp (scoreRow qrow K i j - rowTop (scoreRow qrow K i)) * V j f)
    (∑ j : Fin 2048, Ideal.exp (scoreRow qrow K i j - rowTop (scoreRow qrow K i)))

/-- The layer's context is the row function of one head's columns of the fused projection. -/
theorem ctxK_eq_attnRow (Q : Fin 2 → Fin 2048 → Fin 3072 → EReal) (b : Fin 2) (i : Fin 2048) (h : Fin 16) (d : Fin 64) :
    ctxK Q b i h d = attnRow (fun d' => Q b i (qcol h d')) (fun j d' => Q b j (kcol h d')) (fun j d' => Q b j (vcol h d')) i.val d := rfl

end Cert.Attn

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.Pay0.lean ====
/-
  The two projection bodies read at an entry.

  Each body computes x @ W + b on one block: a [512, 1024] block of rows against a [1024, 1024] block of weight columns,
  contracted along the shared axis from the zero splat, plus the bias row broadcast over the 512 rows. Over the extended
  reals the changes of format are the identity, so entry (p, f) is (Σ_k x[p, k] · W[k, f]) + b[0, f].
-/
import proofs.«107029_g85925115723924_cont_9to1c4b_374_6_alg».proof.Proof.Gen.KernelIdeal.Skeleton
import proofs.«107029_g85925115723924_cont_9to1c4b_374_6_alg».proof.Proof.SpecRow
import proofs.«107029_g85925115723924_cont_9to1c4b_374_6_alg».proof.Proof.LibDotInner
import Idealize.ShloMosaic.Lib.ValueLayout

noncomputable section

open scoped BigOperators

namespace Cert.Attn.Pay

open Idealize.ShloMosaic Idealize.ShloMosaic.ValueIdx Cert.KernelIdeal Cert.KernelIdeal.Gen

/-! ## The [512, 1024] x [1024, 1024] product's dimension numbers -/

theorem proj_l0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem proj_l1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q

theorem proj_r0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q

theorem proj_r1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The block product from the zero splat at entry (p, f): Σ_k a[p, k] · b[k, f]. -/
theorem proj_matmul_at {φ₁ φ₂ : FTy} (a : FVec Ideal S512x1024 φ₁) (b : FVec Ideal S1024x1024 φ₂) (p : Fin 512) (f : Fin 1024) :
    matmul dot_S512x1024_S1024x1024_S512x1024_1_0_0_1_n_n none a b (constant (F := Ideal) S512x1024 .f32 0x00000000#32) (ix2 p f)
      = ∑ k : Fin 1024, a (ix2 p k) * b (ix2 k f) :=
  Idealize.ShloMosaic.DotInner.matmul_zero_apply (M := 512) (N := 1024) (K := 1024)
    dot_S512x1024_S1024x1024_S512x1024_1_0_0_1_n_n rfl rfl proj_l0 proj_l1 proj_r0 proj_r1 none a b p f

/-- The bias row, cast to its own shape and broadcast over the rows, at entry (p, f): b[0, f]. -/
theorem bias_at (bb : FVec Ideal S1x1024 .f32) (p : Fin 512) (f : Fin 1024) :
    broadcastTo S512x1024 (shapeCast S1x1024 bb shapeCasts_S1x1024_S1x1024) broadcasts_S1x1024_S512x1024 (ix2 p f)
      = bb (ix2 0 f) := by
  rw [shapeCast_self]
  exact broadcastTo_1b_ab_apply bb broadcasts_S1x1024_S512x1024 p f

/-- The first projection's body at entry (p, f). -/
theorem pay0_at (x : Vec Ideal Cert.KernelIdeal.S512x1024 .f32) (w : Vec Ideal Cert.KernelIdeal.S1024x1024 .f32)
    (bb : Vec Ideal Cert.KernelIdeal.S1x1024 .f32) (p : Fin 512) (f : Fin 1024) :
    Cert.KernelIdeal.Gen.k0_pay1 (F := Ideal) x w bb (ix2 p f)
      = (∑ k : Fin 1024, x (ix2 p k) * w (ix2 k f)) + bb (ix2 0 f) := by
  unfold Cert.KernelIdeal.Gen.k0_pay1
  refine (addf_apply _ _ _).trans ?_
  refine congrArg₂ (· + ·) ?_ (bias_at bb p f)
  refine (proj_matmul_at _ _ p f).trans ?_
  rw [shapeCast_self]
  rfl

end Cert.Attn.Pay

end
-- ==== Proof.KiFinal0.lean ====
/-
  The fused projection launch, from blocks to the array.

  Every grid point (a, b) of the 8 x 3 grid writes back one [512, 1024] block of the output: rows 512 a .. 512 a + 511,
  columns 1024 b .. 1024 b + 1023. The body leaves in it the product of the row block a of the input with the column
  block b of the weight plus the column block b of the bias row, so the block is the restriction of one function of the
  three whole arrays: entry (r, e) is (Σ_k x[r, k] · W[k, e]) + bias[0, e]. The 24 blocks tile the [4096, 3072] output, so
  after the launch the output array is that function everywhere.
-/
import proofs.«107029_g85925115723924_cont_9to1c4b_374_6_alg».proof.Proof.KiReg0
import proofs.«107029_g85925115723924_cont_9to1c4b_374_6_alg».proof.Proof.Pay0
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The output of the launch as one function of the three arrays it reads: entry (r, e) is
    (Σ_k x[r, k] · W[k, e]) + bias[0, e]. -/
def G0 (x : S4096x1024.Idx → EReal) (w : S1024x3072.Idx → EReal) (bb : S1x3072.Idx → EReal) : S4096x3072.Idx → EReal :=
  fun i => (∑ k : Fin 1024, x (ix2 (⟨(i 0).val, idx2_lt0 i⟩ : Fin 4096) k) * w (ix2 k (⟨(i 1).val, idx2_lt1 i⟩ : Fin 3072)))
    + bb (ix2 (0 : Fin 1) (⟨(i 1).val, idx2_lt1 i⟩ : Fin 3072))

theorem G0_at (x : S4096x1024.Idx → EReal) (w : S1024x3072.Idx → EReal) (bb : S1x3072.Idx → EReal) (r : Fin 4096) (e : Fin 3072) :
    G0 x w bb (ix2 r e) = (∑ k : Fin 1024, x (ix2 r k) * w (ix2 k e)) + bb (ix2 0 e) := rfl

/-- The body's arithmetic at any index of the block, the index given by its coordinates. -/
theorem pay0_at_idx (x : Vec Ideal S512x1024 .f32) (w : Vec Ideal S1024x1024 .f32) (bb : Vec Ideal S1x1024 .f32)
    (j : S512x1024.Idx) :
    k0_pay1 (F := Ideal) x w bb j
      = (∑ k : Fin 1024, x (ix2 (⟨(j 0).val, idx2_lt0 j⟩ : Fin 512) k) * w (ix2 k (⟨(j 1).val, idx2_lt1 j⟩ : Fin 1024)))
        + bb (ix2 (0 : Fin 1) (⟨(j 1).val, idx2_lt1 j⟩ : Fin 1024)) := by
  have hj : j = ix2 (⟨(j 0).val, idx2_lt0 j⟩ : Fin 512) (⟨(j 1).val, idx2_lt1 j⟩ : Fin 1024) := eq_ix2 j
  exact (congrArg (k0_pay1 (F := Ideal) x w bb) hj).trans (Cert.Attn.Pay.pay0_at x w bb _ _)

/-- The printed index maps, decided over the grid: the row block moves with the output's row block index and sits at
    column block 0; the weight's and the bias's column blocks move with the output's column block index and sit at row
    block 0; the output's block indices stay in their ranges. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7
    ∧ win0_3.index t (1 : Fin 2) ≤ 2 :=
  (by decide +kernel : ∀ t : Fin grid0.N, _)

/-- Every block of the output is some point's. -/
theorem idx_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- What point t writes back is block t of G0 of the three arrays as the launch finds them. -/
theorem flushed0_eq (c : Dev nD) (t : Fin cfg0.N) :
    (dat0 V c).flushed 3 t
      = ((cfg0.win 3).blk t).view.read (Elt Ideal) (G0 (V c main_v0) (V c main_arg1) (V c main_v1)) := by
  show (cfg0.win 3).cut (grid0.coords t) ((dat0 V c).after 3 t) = _
  rw [after0_3]
  unfold out0_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7⟩ := idx_facts0 t
  funext j
  show k0_pay1 (F := Ideal) (iblk0 V c 0 t) (iblk0 V c 1 t) (iblk0 V c 2 t) (win0_3.xinj (grid0.coords t) j)
    = G0 (V c main_v0) (V c main_arg1) (V c main_v1) (((cfg0.win 3).blk t).view.emb j)
  refine (pay0_at_idx _ _ _ _).trans ?_
  unfold G0
  refine congrArg₂ (· + ·) (Finset.sum_congr rfl fun k _ => congrArg₂ (· * ·) ?_ ?_) ?_
  · show V c main_v0 (((cfg0.win 0).blk t).view.emb (ix2 _ k)) = V c main_v0 (ix2 _ k)
    refine congrArg (V c main_v0) (funext fun a => Fin.ext ?_)
    match a with
    | ⟨0, _⟩ =>
      show win0_0.index t (0 : Fin 2) * 512 + 1 * (j 0).val = win0_3.index t (0 : Fin 2) * 512 + 1 * (j 0).val
      omega
    | ⟨1, _⟩ =>
      show win0_0.index t (1 : Fin 2) * 1024 + 1 * k.val = k.val
      omega
  · show V c main_arg1 (((cfg0.win 1).blk t).view.emb (ix2 k _)) = V c main_arg1 (ix2 k _)
    refine congrArg (V c main_arg1) (funext fun a => Fin.ext ?_)
    match a with
    | ⟨0, _⟩ =>
      show win0_1.index t (0 : Fin 2) * 1024 + 1 * k.val = k.val
      omega
    | ⟨1, _⟩ =>
      show win0_1.index t (1 : Fin 2) * 1024 + 1 * (j 1).val = win0_3.index t (1 : Fin 2) * 1024 + 1 * (j 1).val
      omega
  · show V c main_v1 (((cfg0.win 2).blk t).view.emb (ix2 0 _)) = V c main_v1 (ix2 0 _)
    refine congrArg (V c main_v1) (funext fun a => Fin.ext ?_)
    match a with
    | ⟨0, _⟩ =>
      show win0_2.index t (0 : Fin 2) * 1 + 1 * 0 = 0
      omega
    | ⟨1, _⟩ =>
      show win0_2.index t (1 : Fin 2) * 1024 + 1 * (j 1).val = win0_3.index t (1 : Fin 2) * 1024 + 1 * (j 1).val
      omega

/-- An index of the output array is in point t's block iff each coordinate is in the block's range on its axis. -/
theorem mem_blk0 (t : Fin cfg0.N) (i : S4096x3072.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- The blocks tile the output: entry (r, e) is in the block of the point with block index (r / 512, e / 1024). -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- The output array after the launch is G0 of the three arrays as the launch finds them. -/
theorem final0 (c : Dev nD) :
    (dat0 V c).arrAt 3 cfg0.N = G0 (V c main_v0) (V c main_arg1) (V c main_v1) :=
  (dat0 V c).arrAt_eq_of_cover 3 (G0 (V c main_v0) (V c main_arg1) (V c main_v1)) (fun t _ => flushed0_eq V c t) cover0

/-- The output array after the launch at entry (r, e), the three arrays the launch finds named x, w, bb:
    (Σ_k x[r, k] · W[k, e]) + bias[0, e]. -/
theorem final0_of (c : Dev nD) (x : S4096x1024.Idx → EReal) (w : S1024x3072.Idx → EReal) (bb : S1x3072.Idx → EReal)
    (hx : V c main_v0 = x) (hw : V c main_arg1 = w) (hb : V c main_v1 = bb) (r : Fin 4096) (e : Fin 3072) :
    (dat0 (F := Ideal) V c).arrAt 3 cfg0.N (ix2 r e) = (∑ k : Fin 1024, x (ix2 r k) * w (ix2 k e)) + bb (ix2 0 e) := by
  subst hx hw hb
  exact (congrFun (final0 V c) (ix2 r e)).trans (G0_at _ _ _ r e)

/-- The same, the arrays read off V in place. -/
theorem final0_at (c : Dev nD) (r : Fin 4096) (e : Fin 3072) :
    (dat0 (F := Ideal) V c).arrAt 3 cfg0.N (ix2 r e)
      = HAdd.hAdd (α := EReal) (β := EReal) (γ := EReal)
          (∑ k : Fin 1024, HMul.hMul (α := EReal) (β := EReal) (γ := EReal) (V c main_v0 (ix2 r k)) (V c main_arg1 (ix2 k e)))
          (V c main_v1 (ix2 0 e)) :=
  final0_of V c _ _ _ rfl rfl rfl r e

end Cert.KernelIdeal.HandV

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.Pay1.lean ====
/-
  The attention body read at an entry.

  One grid point of the attention kernel holds 256 query rows of two neighbouring heads (a [256, 128] block, 64 columns
  per head) and the 2048 key and value rows of each of the two heads. For each head the body forms the scores of the 256
  rows against the 2048 keys, scales them by 1/8, replaces those of later tokens (key index above the row's position
  (i 2) · 256 + p in the sequence) by the large negative fill, exponentiates them shifted by the row maximum, multiplies by the
  values and divides by the row sum. Over the extended reals the changes of format are the identity, so entry (p, f) of a
  head's result is the row function `attnRow` of the row's 64 query features of that head.
-/
import proofs.«107029_g85925115723924_cont_9to1c4b_374_6_alg».proof.Proof.Gen.KernelIdeal.Skeleton
import proofs.«107029_g85925115723924_cont_9to1c4b_374_6_alg».proof.Proof.SpecRow
import proofs.«107029_g85925115723924_cont_9to1c4b_374_6_alg».proof.Proof.LibDotInner
import proofs.«107029_g85925115723924_cont_9to1c4b_374_6_alg».proof.Proof.LibDotLastAxes
import proofs.«107029_g85925115723924_cont_9to1c4b_374_6_alg».proof.Proof.LibSoftmaxRows
import Idealize.ShloMosaic.Lib.ValueLayout
import Idealize.ShloMosaic.Lib.Affine

noncomputable section

open scoped BigOperators

namespace Cert.Attn.Pay

open Idealize.ShloMosaic Idealize.ShloMosaic.ValueIdx Cert.KernelIdeal Cert.KernelIdeal.Gen Cert.SoftmaxLib

/-! ## The causal mask -/

/-- A natural number below 2^31 read back signed from its 32-bit word. -/
theorem toInt_ofNat_small (n : ℕ) (h : n < 2 ^ 31) : (BitVec.ofNat 32 n).toInt = (n : ℤ) := by
  have hn : (BitVec.ofNat 32 n).toNat = n := by rw [BitVec.toNat_ofNat]; omega
  rw [BitVec.toInt_eq_toNat_of_lt (by rw [hn]; omega), hn]

/-- The mask at (p, j) is set exactly when key token j is not after the row's position (i 2) · 256 + p: the signed 32-bit
    comparison of the column number with the block's first position plus the row number, all below 2^31. -/
theorem mask_at (i : grid1.Coords) (p : Fin 256) (j : Fin 2048) :
    k1_pay2 i (ix2 p j) = 1#1 ↔ j.val ≤ (i 2).val * 256 + p.val := by
  have h8 : (i 2).val < 8 := (i 2).isLt
  unfold k1_pay2
  show IntOp.cmpi .sle (iota .tc S256x2048 32 [1] iota_S256x2048_d1_w32 (ix2 p j))
        (IntOp.addi (Scalar.muli (BitVec.ofNat 32 (i 2).val) 256#32) (iota .tc S256x2048 32 [0] iota_S256x2048_d0_w32 (ix2 p j))) = 1#1 ↔ _
  rw [IntOp.cmpi_sle, iota_single_apply, iota_single_apply]
  show (BitVec.ofNat 32 j.val).toInt ≤ (BitVec.ofNat 32 (i 2).val * BitVec.ofNat 32 256 + BitVec.ofNat 32 p.val).toInt ↔ _
  rw [← BitVec.ofNat_mul, ← BitVec.ofNat_add, toInt_ofNat_small _ (by omega), toInt_ofNat_small _ (by omega)]
  omega

/-! ## The two products' dimension numbers -/

theorem score_l0 (j : S256x2048.Idx) (q : dot_S256x64_S2048x64_S256x2048_1_1_0_0_n_n.contr.Idx) : (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl

theorem score_l1 (j : S256x2048.Idx) (q : dot_S256x64_S2048x64_S256x2048_1_1_0_0_n_n.contr.Idx) : (dot_S256x64_S2048x64_S256x2048_1_1_0_0_n_n.lhsIdx j q 1).val = (q ⟨0, by decide⟩).val :=
  dot_S256x64_S2048x64_S256x2048_1_1_0_0_n_n.lhsIdx_val_of_single rfl j q

theorem score_r0 (j : S256x2048.Idx) (q : dot_S256x64_S2048x64_S256x2048_1_1_0_0_n_n.contr.Idx) : (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

theorem score_r1 (j : S256x2048.Idx) (q : dot_S256x64_S2048x64_S256x2048_1_1_0_0_n_n.contr.Idx) : (dot_S256x64_S2048x64_S256x2048_1_1_0_0_n_n.rhsIdx j q 1).val = (q ⟨0, by decide⟩).val :=
  dot_S256x64_S2048x64_S256x2048_1_1_0_0_n_n.rhsIdx_val_of_single rfl j q

/-- Queries against keys from the zero splat at (p, j): Σ_d a[p, d] · b[j, d]. -/
theorem score_matmul_at {φ₁ φ₂ : FTy} (a : FVec Ideal S256x64 φ₁) (b : FVec Ideal S2048x64 φ₂) (p : Fin 256) (j : Fin 2048) :
    matmul dot_S256x64_S2048x64_S256x2048_1_1_0_0_n_n none a b (constant (F := Ideal) S256x2048 .f32 0x00000000#32) (ix2 p j)
      = ∑ d : Fin 64, a (ix2 p d) * b (ix2 j d) :=
  Idealize.ShloMosaic.DotLastAxes.matmul_zero_apply (M := 256) (N := 2048) (K := 64)
    dot_S256x64_S2048x64_S256x2048_1_1_0_0_n_n rfl rfl score_l0 score_l1 score_r0 score_r1 none a b p j

theorem ctx_l0 (j : S256x64.Idx) (q : dot_S256x2048_S2048x64_S256x64_1_0_0_1_n_n.contr.Idx) : (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl

theorem ctx_l1 (j : S256x64.Idx) (q : dot_S256x2048_S2048x64_S256x64_1_0_0_1_n_n.contr.Idx) : (dot_S256x2048_S2048x64_S256x64_1_0_0_1_n_n.lhsIdx j q 1).val = (q ⟨0, by decide⟩).val :=
  dot_S256x2048_S2048x64_S256x64_1_0_0_1_n_n.lhsIdx_val_of_single rfl j q

theorem ctx_r0 (j : S256x64.Idx) (q : dot_S256x2048_S2048x64_S256x64_1_0_0_1_n_n.contr.Idx) : (dot_S256x2048_S2048x64_S256x64_1_0_0_1_n_n.rhsIdx j q 0).val = (q ⟨0, by decide⟩).val :=
  dot_S256x2048_S2048x64_S256x64_1_0_0_1_n_n.rhsIdx_val_of_single rfl j q

theorem ctx_r1 (j : S256x64.Idx) (q : dot_S256x2048_S2048x64_S256x64_1_0_0_1_n_n.contr.Idx) : (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- Weights against values from the zero splat at (p, f): Σ_j a[p, j] · b[j, f]. -/
theorem ctx_matmul_at {φ₁ φ₂ : FTy} (a : FVec Ideal S256x2048 φ₁) (b : FVec Ideal S2048x64 φ₂) (p : Fin 256) (f : Fin 64) :
    matmul dot_S256x2048_S2048x64_S256x64_1_0_0_1_n_n none a b (constant (F := Ideal) S256x64 .f32 0x00000000#32) (ix2 p f)
      = ∑ j : Fin 2048, a (ix2 p j) * b (ix2 j f) :=
  Idealize.ShloMosaic.DotInner.matmul_zero_apply (M := 256) (N := 64) (K := 2048)
    dot_S256x2048_S2048x64_S256x64_1_0_0_1_n_n rfl rfl ctx_l0 ctx_l1 ctx_r0 ctx_r1 none a b p f

/-! ## The masked, scaled scores -/

theorem scoreRow_apply (qrow : Fin 64 → EReal) (K : Fin 2048 → Fin 64 → EReal) (n : ℕ) (j : Fin 2048) :
    scoreRow qrow K n j = if j.val ≤ n then (∑ d : Fin 64, qrow d * K j d) * scaleC else fillC := rfl

/-- The masked score block at (p, j) is the row's masked, scaled score against key token j. -/
theorem score_at (i : grid1.Coords) (qs : FVec Ideal S256x64 .bf16) (K : FVec Ideal S2048x64 .bf16) (p : Fin 256) (j : Fin 2048) :
    select (k1_pay2 i)
        (mulf (matmul dot_S256x64_S2048x64_S256x2048_1_1_0_0_n_n none qs K (constant (F := Ideal) S256x2048 .f32 0x00000000#32))
          (broadcast S256x2048 (Scalar.ofBits (F := Ideal) .f32 0x3E000000#32)))
        (broadcast S256x2048 (Scalar.ofBits (F := Ideal) .f32 0xF149F2CA#32)) (ix2 p j)
      = scoreRow (fun d => qs (ix2 p d)) (fun j d => K (ix2 j d)) ((i 2).val * 256 + p.val) j := by
  refine (select_apply _ _ _ _).trans ?_
  rw [scoreRow_apply]
  by_cases h : j.val ≤ (i 2).val * 256 + p.val
  · rw [(mask_at i p j).mpr h, select_one, if_pos h]
    refine (mulf_apply _ _ _).trans ?_
    exact congrArg (· * scaleC) (score_matmul_at qs K p j)
  · rw [eq_zero_of_ne_one (fun e => h ((mask_at i p j).mp e)), select_zero, if_neg h]
    rfl

/-! ## One head: scores, shifted exponentials, the weighted values over the row sum -/

/-- The head's body at (p, f), as a function of the head's 64 query columns `qs`, its keys and its values. -/
theorem core_at (i : grid1.Coords) (qs : FVec Ideal S256x64 .bf16) (K V : FVec Ideal S2048x64 .bf16) (p : Fin 256) (f : Fin 64) :
    k1_pay1 (F := Ideal) (k1_pay2 i) qs K V (constant (F := Ideal) S256x2048 .f32 0x00000000#32) (ix2 p f)
      = attnRow (fun d => qs (ix2 p d)) (fun j d => K (ix2 j d)) (fun j d => V (ix2 j d)) ((i 2).val * 256 + p.val) f := by
  unfold k1_pay1 attnRow
  refine (divf_apply _ _ _).trans ?_
  refine congrArg₂ Ideal.div ?_ ?_
  · refine (ctx_matmul_at _ _ p f).trans ?_
    refine Finset.sum_congr rfl fun j _ => ?_
    refine congrArg₂ (· * ·) ?_ rfl
    refine (shifted_exp_at _ _ _ _ _ _ p j).trans ?_
    exact congrArg₂ (fun a r => Ideal.exp (a - rowTop r)) (score_at i qs K p j) (funext fun k' => score_at i qs K p k')
  · refine (Cert.LayoutKeepdims.broadcastTo_a1_ab_apply _ _ p f).trans ?_
    refine (Cert.LayoutKeepdims.shapeCast_a_a1_apply _ _ p 0).trans ?_
    refine (Idealize.ShloMosaic.RowSum.rowSum_apply _ _ _ _ p).trans ?_
    refine Finset.sum_congr rfl fun j _ => ?_
    refine (shifted_exp_at _ _ _ _ _ _ p j).trans ?_
    exact congrArg₂ (fun a r => Ideal.exp (a - rowTop r)) (score_at i qs K p j) (funext fun k' => score_at i qs K p k')

/-! ## The two heads of a block -/

/-- The block of query rows cast to its own shape is itself. -/
theorem pay3_eq (q : Vec Ideal S256x128 .bf16) : k1_pay3 (F := Ideal) q = q := shapeCast_self _ _

/-- The first head's query columns: columns 0..63 of the block. -/
theorem slice0_at (q : FVec Ideal S256x128 .bf16) (p : Fin 256) (d : Fin 64) :
    extractStridedSlice S256x64 ![0, 0] q slices_S256x128_o0_0_S256x64 (ix2 p d) = q (ix2 p ⟨d.val, by omega⟩) :=
  extractStridedSlice_apply _ q _ (ix2 p d) (ix2 p ⟨d.val, by omega⟩) fun a => match a with
    | ⟨0, _⟩ => by show p.val = 0 + p.val; omega
    | ⟨1, _⟩ => by show d.val = 0 + d.val; omega

/-- The second head's query columns: columns 64..127 of the block. -/
theorem slice1_at (q : FVec Ideal S256x128 .bf16) (p : Fin 256) (d : Fin 64) :
    extractStridedSlice S256x64 ![0, 64] q slices_S256x128_o0_64_S256x64 (ix2 p d) = q (ix2 p ⟨64 + d.val, by omega⟩) :=
  extractStridedSlice_apply _ q _ (ix2 p d) (ix2 p ⟨64 + d.val, by omega⟩) fun a => match a with
    | ⟨0, _⟩ => by show p.val = 0 + p.val; omega
    | ⟨1, _⟩ => by show 64 + d.val = 64 + d.val; rfl

/-- The first head's result at (p, f). -/
theorem pay1_head0_at (i : Cert.KernelIdeal.grid1.Coords) (q : Vec Ideal S256x128 .bf16) (kk vv : Vec Ideal S2048x64 .bf16)
    (p : Fin 256) (f : Fin 64) :
    Cert.KernelIdeal.Gen.k1_pay4 (F := Ideal) i q kk vv (ix2 p f)
      = Cert.Attn.attnRow (fun d => q (ix2 p ⟨d.val, by omega⟩)) (fun j d => kk (ix2 j d)) (fun j d => vv (ix2 j d))
          ((i 2).val * 256 + p.val) f := by
  have e : k1_pay4 (F := Ideal) i q kk vv
      = k1_pay1 (F := Ideal) (k1_pay2 i) (extractStridedSlice S256x64 ![0, 0] (k1_pay3 (F := Ideal) q) slices_S256x128_o0_0_S256x64)
          (shapeCast S2048x64 kk shapeCasts_S2048x64_S2048x64) (shapeCast S2048x64 vv shapeCasts_S2048x64_S2048x64)
          (constant (F := Ideal) S256x2048 .f32 0x00000000#32) := rfl
  rw [e, shapeCast_self, shapeCast_self, pay3_eq]
  refine (core_at i _ kk vv p f).trans ?_
  exact congrArg (fun qr => attnRow qr (fun j d => kk (ix2 j d)) (fun j d => vv (ix2 j d)) ((i 2).val * 256 + p.val) f)
    (funext fun d => slice0_at q p d)

/-- The second head's result at (p, f). -/
theorem pay1_head1_at (i : Cert.KernelIdeal.grid1.Coords) (q : Vec Ideal S256x128 .bf16) (kk vv : Vec Ideal S2048x64 .bf16)
    (p : Fin 256) (f : Fin 64) :
    Cert.KernelIdeal.Gen.k1_pay1 (F := Ideal) (Cert.KernelIdeal.Gen.k1_pay2 i) (Cert.KernelIdeal.Gen.k1_pay5 q)
        (Cert.KernelIdeal.Gen.k1_pay6 kk) (Cert.KernelIdeal.Gen.k1_pay7 vv) (constant Cert.KernelIdeal.S256x2048 .f32 0x00000000#32) (ix2 p f)
      = Cert.Attn.attnRow (fun d => q (ix2 p ⟨64 + d.val, by omega⟩)) (fun j d => kk (ix2 j d)) (fun j d => vv (ix2 j d))
          ((i 2).val * 256 + p.val) f := by
  have e6 : k1_pay6 (F := Ideal) kk = kk := shapeCast_self _ _
  have e7 : k1_pay7 (F := Ideal) vv = vv := shapeCast_self _ _
  have e5 : k1_pay5 (F := Ideal) q = extractStridedSlice S256x64 ![0, 64] q slices_S256x128_o0_64_S256x64 := by
    unfold k1_pay5; rw [pay3_eq]
  rw [e6, e7, e5]
  refine (core_at i _ kk vv p f).trans ?_
  exact congrArg (fun qr => attnRow qr (fun j d => kk (ix2 j d)) (fun j d => vv (ix2 j d)) ((i 2).val * 256 + p.val) f)
    (funext fun d => slice1_at q p d)

end Cert.Attn.Pay

end
-- ==== Proof.KiFinal1.lean ====
/-
  The attention launch's output array as one function of the fused projection.

  The launch walks 2 x 8 x 8 grid points (sequence, head pair, block of 256 query rows). At each it reads a [256, 128]
  block of query columns, the [2048, 128] blocks of key and of value columns of the same sequence and head pair, and
  writes back a [256, 128] block of the output: two heads' attention side by side. Every entry of the [4096, 1024] output
  is in exactly the block of the point whose sequence, head pair and row block it names, and what that point writes
  there is the row function `attnRow` of the projection's query, key and value columns of that head.
-/
import proofs.«107029_g85925115723924_cont_9to1c4b_374_6_alg».proof.Proof.KiReg1
import proofs.«107029_g85925115723924_cont_9to1c4b_374_6_alg».proof.Proof.Pay1
import proofs.«107029_g85925115723924_cont_9to1c4b_374_6_alg».proof.Proof.SpecRow
import Idealize.ShloMosaic.Lib.Pipeline.Value
import Idealize.ShloMosaic.Lib.Decide

set_option maxRecDepth 16384

noncomputable section

open scoped BigOperators

namespace Cert.KernelIdeal.HandV

open Cert.KernelIdeal Cert.KernelIdeal.Gen Cert.KernelIdeal.Hand Cert.Attn Idealize.ShloMosaic.ValueIdx
open Idealize.ShloMosaic Idealize.ShloMosaic.TcCoe Idealize.SL.Sem
open Idealize.ShloMosaic.Pipeline (Dat Cfg Window)

/-! ## The index maps, decided over the grid -/

/-- The query block moves with the output block; the key and value blocks sit 8 and 16 column blocks to the right of it, on
    the row block of the output block's sequence; the third grid coordinate is the row block's number inside its sequence. -/
theorem idx_facts1 : ∀ t : Fin cfg1.N,
    win1_0.index t (0 : Fin 2) = win1_3.index t (0 : Fin 2)
    ∧ win1_0.index t (1 : Fin 2) = win1_3.index t (1 : Fin 2)
    ∧ win1_1.index t (1 : Fin 2) = win1_3.index t (1 : Fin 2) + 8
    ∧ win1_2.index t (1 : Fin 2) = win1_3.index t (1 : Fin 2) + 16
    ∧ win1_2.index t (0 : Fin 2) = win1_1.index t (0 : Fin 2)
    ∧ 8 * win1_1.index t (0 : Fin 2) ≤ win1_3.index t (0 : Fin 2)
    ∧ win1_3.index t (0 : Fin 2) < 8 * win1_1.index t (0 : Fin 2) + 8
    ∧ (grid1.coords t 2).val = win1_3.index t (0 : Fin 2) % 8
    ∧ win1_3.index t (0 : Fin 2) ≤ 15
    ∧ win1_3.index t (1 : Fin 2) ≤ 7 :=
  (by decide +kernel : ∀ t : Fin grid1.N, _)

/-- Every output block is some point's. -/
theorem idx_onto1 : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-! ## The output array's function -/

variable (V : (c : Dev nD) → (b : Ref sig .tc) → Buf (Elt Ideal) ((c : Thread nD τ).loc b))

/-- Head h's attention of query token i of sequence b, feature d, off the fused projection as the launch finds it. -/
def rowFn (c : Dev nD) (b : Fin 2) (i : Fin 2048) (h : Fin 16) (d : Fin 64) : EReal :=
  attnRow (fun d' => V c main_v2 (ix2 (⟨b.val * 2048 + i.val, by omega⟩ : Fin 4096) (qcol h d')))
    (fun j d' => V c main_v2 (ix2 (⟨b.val * 2048 + j.val, by omega⟩ : Fin 4096) (kcol h d')))
    (fun j d' => V c main_v2 (ix2 (⟨b.val * 2048 + j.val, by omega⟩ : Fin 4096) (vcol h d'))) i.val d

/-- The output array: at row r and column e, sequence r / 2048, token r % 2048, head e / 64, feature e % 64. -/
def G1 (c : Dev nD) : S4096x1024.Idx → Elt Ideal .bf16 := fun y =>
  rowFn V c ⟨(y 0).val / 2048, by have := idx2_lt0 y; omega⟩ ⟨(y 0).val % 2048, by omega⟩
    ⟨(y 1).val / 64, by have := idx2_lt1 y; omega⟩ ⟨(y 1).val % 64, by omega⟩

/-- Its value at an index whose coordinates are given by sequence, token, head and feature. -/
theorem G1_eq (c : Dev nD) (y : S4096x1024.Idx) (b : Fin 2) (i : Fin 2048) (h : Fin 16) (d : Fin 64)
    (h0 : (y 0).val = b.val * 2048 + i.val) (h1 : (y 1).val = h.val * 64 + d.val) : G1 V c y = rowFn V c b i h d := by
  have e0 : (⟨(y 0).val / 2048, by have := idx2_lt0 y; omega⟩ : Fin 2) = b := Fin.ext (by show (y 0).val / 2048 = b.val; omega)
  have e1 : (⟨(y 0).val % 2048, by omega⟩ : Fin 2048) = i := Fin.ext (by show (y 0).val % 2048 = i.val; omega)
  have e2 : (⟨(y 1).val / 64, by have := idx2_lt1 y; omega⟩ : Fin 16) = h := Fin.ext (by show (y 1).val / 64 = h.val; omega)
  have e3 : (⟨(y 1).val % 64, by omega⟩ : Fin 64) = d := Fin.ext (by show (y 1).val % 64 = d.val; omega)
  unfold G1
  rw [e0, e1, e2, e3]

theorem G1_at (c : Dev nD) (b : Fin 2) (i : Fin 2048) (h : Fin 16) (d : Fin 64) :
    G1 V c (ix2 (⟨b.val * 2048 + i.val, by omega⟩ : Fin 4096) (⟨h.val * 64 + d.val, by omega⟩ : Fin 1024)) = rowFn V c b i h d :=
  G1_eq V c _ b i h d rfl rfl

/-- The row function depends on its arguments only through their values. -/
theorem attnRow_congr {q q' : Fin 64 → EReal} {K K' W W' : Fin 2048 → Fin 64 → EReal} {n n' : ℕ} {f f' : Fin 64}
    (hq : ∀ d, q d = q' d) (hK : ∀ j d, K j d = K' j d) (hW : ∀ j d, W j d = W' j d) (hn : n = n') (hf : f = f') :
    attnRow q K W n f = attnRow q' K' W' n' f' := by
  obtain rfl : q = q' := funext hq
  obtain rfl : K = K' := funext fun j => funext (hK j)
  obtain rfl : W = W' := funext fun j => funext (hW j)
  subst hn hf
  rfl

/-! ## The input blocks read off the projection -/

/-- The query block at point t holds the projection at rows 256 · (row block) + x₀, columns 128 · (column block) + x₁. -/
theorem iblk1_0_apply (c : Dev nD) (t : Fin cfg1.N) (x : S256x128.Idx) (k : S4096x3072.Idx)
    (hk0 : (k 0).val = win1_0.index t (0 : Fin 2) * 256 + (x 0).val) (hk1 : (k 1).val = win1_0.index t (1 : Fin 2) * 128 + (x 1).val) :
    (iblk1 (F := Ideal) V c 0 t : Vec Ideal S256x128 .bf16) x = (V c main_v2 : S4096x3072.Idx → Elt Ideal .bf16) k := by
  unfold iblk1
  rw [View.read_apply]
  show V c main_v2 _ = V c main_v2 _
  congr 1
  funext a
  apply Fin.ext
  match a with
  | ⟨0, _⟩ => show win1_0.index t (0 : Fin 2) * 256 + 1 * (x 0).val = (k 0).val; omega
  | ⟨1, _⟩ => show win1_0.index t (1 : Fin 2) * 128 + 1 * (x 1).val = (k 1).val; omega

/-- The key block at point t. -/
theorem iblk1_1_apply (c : Dev nD) (t : Fin cfg1.N) (x : S2048x128.Idx) (k : S4096x3072.Idx)
    (hk0 : (k 0).val = win1_1.index t (0 : Fin 2) * 2048 + (x 0).val) (hk1 : (k 1).val = win1_1.index t (1 : Fin 2) * 128 + (x 1).val) :
    (iblk1 (F := Ideal) V c 1 t : Vec Ideal S2048x128 .bf16) x = (V c main_v2 : S4096x3072.Idx → Elt Ideal .bf16) k := by
  unfold iblk1
  rw [View.read_apply]
  show V c main_v2 _ = V c main_v2 _
  congr 1
  funext a
  apply Fin.ext
  match a with
  | ⟨0, _⟩ => show win1_1.index t (0 : Fin 2) * 2048 + 1 * (x 0).val = (k 0).val; omega
  | ⟨1, _⟩ => show win1_1.index t (1 : Fin 2) * 128 + 1 * (x 1).val = (k 1).val; omega

/-- The value block at point t. -/
theorem iblk1_2_apply (c : Dev nD) (t : Fin cfg1.N) (x : S2048x128.Idx) (k : S4096x3072.Idx)
    (hk0 : (k 0).val = win1_2.index t (0 : Fin 2) * 2048 + (x 0).val) (hk1 : (k 1).val = win1_2.index t (1 : Fin 2) * 128 + (x 1).val) :
    (iblk1 (F := Ideal) V c 2 t : Vec Ideal S2048x128 .bf16) x = (V c main_v2 : S4096x3072.Idx → Elt Ideal .bf16) k := by
  unfold iblk1
  rw [View.read_apply]
  show V c main_v2 _ = V c main_v2 _
  congr 1
  funext a
  apply Fin.ext
  match a with
  | ⟨0, _⟩ => show win1_2.index t (0 : Fin 2) * 2048 + 1 * (x 0).val = (k 0).val; omega
  | ⟨1, _⟩ => show win1_2.index t (1 : Fin 2) * 128 + 1 * (x 1).val = (k 1).val; omega

/-! ## What a point writes back -/

/-- The first head's store at point t: the output function at the block's left 64 columns. -/
theorem piece_left (c : Dev nD) (t : Fin cfg1.N) (p : Fin 256) (d : Fin 64) :
    k1_pay4 (F := Ideal) (grid1.coords t) (View.ld (iblk1 (F := Ideal) V c 0 t) r1_q) (View.ld (iblk1 (F := Ideal) V c 1 t) r1_kl)
        (View.ld (iblk1 (F := Ideal) V c 2 t) r1_kl) (ix2 p d)
      = G1 V c (((cfg1.win 3).blk t).view.emb (r1_ol.emb (ix2 p d))) := by
  obtain ⟨e0, e1, e2, e3, e4, e5, e6, e7, e8, e9⟩ := idx_facts1 t
  refine (Cert.Attn.Pay.pay1_head0_at (grid1.coords t) _ _ _ p d).trans ?_
  rw [G1_eq V c _ ⟨win1_1.index t (0 : Fin 2), by omega⟩ ⟨win1_3.index t (0 : Fin 2) % 8 * 256 + p.val, by omega⟩
      ⟨win1_3.index t (1 : Fin 2) * 2, by omega⟩ d
      (by show win1_3.index t (0 : Fin 2) * 256 + 1 * (0 + 1 * p.val) = win1_1.index t (0 : Fin 2) * 2048 + (win1_3.index t (0 : Fin 2) % 8 * 256 + p.val); omega)
      (by show win1_3.index t (1 : Fin 2) * 128 + 1 * (0 + 1 * d.val) = win1_3.index t (1 : Fin 2) * 2 * 64 + d.val; omega)]
  unfold rowFn
  refine attnRow_congr (fun d' => ?_) (fun j d' => ?_) (fun j d' => ?_) ?_ rfl
  · exact iblk1_0_apply V c t _ _
      (by show win1_1.index t (0 : Fin 2) * 2048 + (win1_3.index t (0 : Fin 2) % 8 * 256 + p.val) = win1_0.index t (0 : Fin 2) * 256 + (0 + 1 * p.val); omega)
      (by show win1_3.index t (1 : Fin 2) * 2 * 64 + d'.val = win1_0.index t (1 : Fin 2) * 128 + (0 + 1 * d'.val); omega)
  · exact iblk1_1_apply V c t _ _
      (by show win1_1.index t (0 : Fin 2) * 2048 + j.val = win1_1.index t (0 : Fin 2) * 2048 + (0 + 1 * j.val); omega)
      (by show 1024 + win1_3.index t (1 : Fin 2) * 2 * 64 + d'.val = win1_1.index t (1 : Fin 2) * 128 + (0 + 1 * d'.val); omega)
  · exact iblk1_2_apply V c t _ _
      (by show win1_1.index t (0 : Fin 2) * 2048 + j.val = win1_2.index t (0 : Fin 2) * 2048 + (0 + 1 * j.val); omega)
      (by show 2048 + win1_3.index t (1 : Fin 2) * 2 * 64 + d'.val = win1_2.index t (1 : Fin 2) * 128 + (0 + 1 * d'.val); omega)
  · show (grid1.coords t 2).val * 256 + p.val = win1_3.index t (0 : Fin 2) % 8 * 256 + p.val
    rw [e7]

/-- The second head's store at point t: the output function at the block's right 64 columns. -/
theorem piece_right (c : Dev nD) (t : Fin cfg1.N) (p : Fin 256) (d : Fin 64) :
    k1_pay1 (F := Ideal) (k1_pay2 (grid1.coords t)) (k1_pay5 (View.ld (iblk1 (F := Ideal) V c 0 t) r1_q))
        (k1_pay6 (View.ld (iblk1 (F := Ideal) V c 1 t) r1_kr)) (k1_pay7 (View.ld (iblk1 (F := Ideal) V c 2 t) r1_kr))
        (constant S256x2048 .f32 0x00000000#32) (ix2 p d)
      = G1 V c (((cfg1.win 3).blk t).view.emb (r1_or.emb (ix2 p d))) := by
  obtain ⟨e0, e1, e2, e3, e4, e5, e6, e7, e8, e9⟩ := idx_facts1 t
  refine (Cert.Attn.Pay.pay1_head1_at (grid1.coords t) _ _ _ p d).trans ?_
  rw [G1_eq V c _ ⟨win1_1.index t (0 : Fin 2), by omega⟩ ⟨win1_3.index t (0 : Fin 2) % 8 * 256 + p.val, by omega⟩
      ⟨win1_3.index t (1 : Fin 2) * 2 + 1, by omega⟩ d
      (by show win1_3.index t (0 : Fin 2) * 256 + 1 * (0 + 1 * p.val) = win1_1.index t (0 : Fin 2) * 2048 + (win1_3.index t (0 : Fin 2) % 8 * 256 + p.val); omega)
      (by show win1_3.index t (1 : Fin 2) * 128 + 1 * (64 + 1 * d.val) = (win1_3.index t (1 : Fin 2) * 2 + 1) * 64 + d.val; omega)]
  unfold rowFn
  refine attnRow_congr (fun d' => ?_) (fun j d' => ?_) (fun j d' => ?_) ?_ rfl
  · exact iblk1_0_apply V c t _ _
      (by show win1_1.index t (0 : Fin 2) * 2048 + (win1_3.index t (0 : Fin 2) % 8 * 256 + p.val) = win1_0.index t (0 : Fin 2) * 256 + (0 + 1 * p.val); omega)
      (by show (win1_3.index t (1 : Fin 2) * 2 + 1) * 64 + d'.val = win1_0.index t (1 : Fin 2) * 128 + (0 + 1 * (64 + d'.val)); omega)
  · exact iblk1_1_apply V c t _ _
      (by show win1_1.index t (0 : Fin 2) * 2048 + j.val = win1_1.index t (0 : Fin 2) * 2048 + (0 + 1 * j.val); omega)
      (by show 1024 + (win1_3.index t (1 : Fin 2) * 2 + 1) * 64 + d'.val = win1_1.index t (1 : Fin 2) * 128 + (64 + 1 * d'.val); omega)
  · exact iblk1_2_apply V c t _ _
      (by show win1_1.index t (0 : Fin 2) * 2048 + j.val = win1_2.index t (0 : Fin 2) * 2048 + (0 + 1 * j.val); omega)
      (by show 2048 + (win1_3.index t (1 : Fin 2) * 2 + 1) * 64 + d'.val = win1_2.index t (1 : Fin 2) * 128 + (64 + 1 * d'.val); omega)
  · show (grid1.coords t 2).val * 256 + p.val = win1_3.index t (0 : Fin 2) % 8 * 256 + p.val
    rw [e7]

/-- WHAT POINT t WRITES BACK is block t of the output function. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  funext j
  rw [View.read_apply]
  show View.canon _ j = G1 V c (((cfg1.win 3).blk t).view.emb j)
  refine View.canon_apply_of_pieces (fun y : S256x128.Idx => G1 V c (((cfg1.win 3).blk t).view.emb y)) _ ?_ j (cover1_3 _ _ j)
  have hr : ∀ x : S256x64.Idx, k1_pay1 (F := Ideal) (k1_pay2 (grid1.coords t)) (k1_pay5 (View.ld (iblk1 (F := Ideal) V c 0 t) r1_q))
        (k1_pay6 (View.ld (iblk1 (F := Ideal) V c 1 t) r1_kr)) (k1_pay7 (View.ld (iblk1 (F := Ideal) V c 2 t) r1_kr))
        (constant S256x2048 .f32 0x00000000#32) x = G1 V c (((cfg1.win 3).blk t).view.emb (r1_or.emb x)) := fun x => by
    obtain ⟨p, d, rfl⟩ : ∃ (p : Fin 256) (d : Fin 64), x = ix2 p d := ⟨x 0, x 1, eq_ix2 x⟩
    exact piece_right V c t p d
  have hl : ∀ x : S256x64.Idx, k1_pay4 (F := Ideal) (grid1.coords t) (View.ld (iblk1 (F := Ideal) V c 0 t) r1_q)
        (View.ld (iblk1 (F := Ideal) V c 1 t) r1_kl) (View.ld (iblk1 (F := Ideal) V c 2 t) r1_kl) x
      = G1 V c (((cfg1.win 3).blk t).view.emb (r1_ol.emb x)) := fun x => by
    obtain ⟨p, d, rfl⟩ : ∃ (p : Fin 256) (d : Fin 64), x = ix2 p d := ⟨x 0, x 1, eq_ix2 x⟩
    exact piece_left V c t p d
  intro pc hpc x
  rcases List.mem_cons.mp hpc with rfl | hpc
  · exact hr x
  rcases List.mem_cons.mp hpc with rfl | hpc
  · exact hl x
  · exact absurd hpc List.not_mem_nil

/-! ## The blocks cover the array -/

/-- An index of the array is in point t's block iff each coordinate is in the block's range on its axis. -/
theorem mem_blk1 (t : Fin cfg1.N) (i : S4096x1024.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v3).slice (win1_3.rect t)).set ↔ _
  rw [View.set_slice_whole, Rect.mem_set_unit]
  exact Iff.rfl

/-- Every index is in the block of the point whose output block is (row / 256, column / 128), and every point writes back. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto1 ⟨(i 0).val / 256, by omega⟩ ⟨(i 1).val / 128, by omega⟩
  have q0 : win1_3.index t (0 : Fin 2) = (i 0).val / 256 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- THE ARRAY after the launch is the output function. -/
theorem final1 (c : Dev nD) : (dat1 (F := Ideal) V c).arrAt 3 cfg1.N = G1 V c :=
  (dat1 (F := Ideal) V c).arrAt_eq_of_cover 3 (G1 V c) (fun t _ => flushed1_eq V c t) cover1

/-- The output array at sequence b, token i, head h, feature d. -/
theorem final1_at (V : (c : Dev nD) → (b : Ref sig .tc) → Buf (Elt Ideal) ((c : Thread nD τ).loc b)) (c : Dev nD) (b : Fin 2) (i : Fin 2048)
    (h : Fin 16) (d : Fin 64) :
    (dat1 (F := Ideal) V c).arrAt 3 cfg1.N (ix2 (⟨b.val * 2048 + i.val, by omega⟩ : Fin 4096) (⟨h.val * 64 + d.val, by omega⟩ : Fin 1024))
      = attnRow (fun d' => V c main_v2 (ix2 (⟨b.val * 2048 + i.val, by omega⟩ : Fin 4096) (qcol h d')))
          (fun j d' => V c main_v2 (ix2 (⟨b.val * 2048 + j.val, by omega⟩ : Fin 4096) (kcol h d')))
          (fun j d' => V c main_v2 (ix2 (⟨b.val * 2048 + j.val, by omega⟩ : Fin 4096) (vcol h d'))) i.val d := by
  rw [final1]
  exact G1_at V c b i h d

end Cert.KernelIdeal.HandV

end
-- ==== Proof.Pay2.lean ====
/-
  The output projection's body read at an entry.

  The body computes x @ W + b on one block: a [512, 1024] block of context rows against the [1024, 1024] weight,
  contracted along the shared axis from the zero splat, plus the bias row broadcast over the 512 rows. Over the extended
  reals the change of format of the weight is the identity, so entry (p, f) is (Σ_k x[p, k] · W[k, f]) + b[0, f].
-/
import proofs.«107029_g85925115723924_cont_9to1c4b_374_6_alg».proof.Proof.Pay0

noncomputable section

open scoped BigOperators

namespace Cert.Attn.Pay

open Idealize.ShloMosaic Idealize.ShloMosaic.ValueIdx Cert.KernelIdeal Cert.KernelIdeal.Gen

/-- The output projection's body at entry (p, f). -/
theorem pay2_at (x : Vec Ideal Cert.KernelIdeal.S512x1024 .bf16) (w : Vec Ideal Cert.KernelIdeal.S1024x1024 .f32)
    (bb : Vec Ideal Cert.KernelIdeal.S1x1024 .f32) (p : Fin 512) (f : Fin 1024) :
    Cert.KernelIdeal.Gen.k2_pay1 (F := Ideal) x w bb (ix2 p f)
      = (∑ k : Fin 1024, x (ix2 p k) * w (ix2 k f)) + bb (ix2 0 f) := by
  unfold Cert.KernelIdeal.Gen.k2_pay1
  refine (addf_apply _ _ _).trans ?_
  refine congrArg₂ (· + ·) ?_ (bias_at bb p f)
  refine (proj_matmul_at _ _ p f).trans ?_
  rw [shapeCast_self]
  rfl

end Cert.Attn.Pay

end
-- ==== Proof.KiFinal2.lean ====
/-
  The output projection launch, from blocks to the array.

  Every grid point (a, 0) of the 8 x 1 grid writes back one [512, 1024] block of the output: rows 512 a .. 512 a + 511,
  all 1024 columns. The body leaves in it the product of the row block a of the context with the whole weight plus the
  bias row, so the block is the restriction of one function of the three whole arrays: entry (r, e) is
  (Σ_k x[r, k] · W[k, e]) + bias[0, e]. The 8 blocks tile the [4096, 1024] output, so after the launch the output array is
  that function everywhere.
-/
import proofs.«107029_g85925115723924_cont_9to1c4b_374_6_alg».proof.Proof.KiReg2
import proofs.«107029_g85925115723924_cont_9to1c4b_374_6_alg».proof.Proof.Pay2
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The output of the launch as one function of the three arrays it reads: entry (r, e) is
    (Σ_k x[r, k] · W[k, e]) + bias[0, e]. -/
def G2 (x : S4096x1024.Idx → EReal) (w : S1024x1024.Idx → EReal) (bb : S1x1024.Idx → EReal) : S4096x1024.Idx → EReal :=
  fun i => (∑ k : Fin 1024, x (ix2 (⟨(i 0).val, idx2_lt0 i⟩ : Fin 4096) k) * w (ix2 k (⟨(i 1).val, idx2_lt1 i⟩ : Fin 1024)))
    + bb (ix2 (0 : Fin 1) (⟨(i 1).val, idx2_lt1 i⟩ : Fin 1024))

theorem G2_at (x : S4096x1024.Idx → EReal) (w : S1024x1024.Idx → EReal) (bb : S1x1024.Idx → EReal) (r : Fin 4096) (e : Fin 1024) :
    G2 x w bb (ix2 r e) = (∑ k : Fin 1024, x (ix2 r k) * w (ix2 k e)) + bb (ix2 0 e) := rfl

/-- The body's arithmetic at any index of the block, the index given by its coordinates. -/
theorem pay2_at_idx (x : Vec Ideal S512x1024 .bf16) (w : Vec Ideal S1024x1024 .f32) (bb : Vec Ideal S1x1024 .f32)
    (j : S512x1024.Idx) :
    k2_pay1 (F := Ideal) x w bb j
      = (∑ k : Fin 1024, x (ix2 (⟨(j 0).val, idx2_lt0 j⟩ : Fin 512) k) * w (ix2 k (⟨(j 1).val, idx2_lt1 j⟩ : Fin 1024)))
        + bb (ix2 (0 : Fin 1) (⟨(j 1).val, idx2_lt1 j⟩ : Fin 1024)) := by
  have hj : j = ix2 (⟨(j 0).val, idx2_lt0 j⟩ : Fin 512) (⟨(j 1).val, idx2_lt1 j⟩ : Fin 1024) := eq_ix2 j
  exact (congrArg (k2_pay1 (F := Ideal) x w bb) hj).trans (Cert.Attn.Pay.pay2_at x w bb _ _)

/-- The printed index maps, decided over the grid: the row block moves with the output's row block index and sits at
    column block 0; the weight's and the bias's blocks move with the output's column block index, which is 0 throughout,
    and sit at row block 0; the output's block indices stay in their ranges. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) ≤ 7
    ∧ win2_3.index t (1 : Fin 2) ≤ 0 :=
  (by decide +kernel : ∀ t : Fin grid2.N, _)

/-- Every block of the output is some point's. -/
theorem idx_onto2 : ∀ (q0 : Fin 8) (q1 : Fin 1), ∃ t : Fin cfg2.N, win2_3.index t = ![q0.val, q1.val] :=
  (by decide +kernel : ∀ (q0 : Fin 8) (q1 : Fin 1), ∃ t : Fin grid2.N, win2_3.index t = ![q0.val, q1.val])

/-- What point t writes back is block t of G2 of the three arrays as the launch finds them. -/
theorem flushed2_eq (c : Dev nD) (t : Fin cfg2.N) :
    (dat2 V c).flushed 3 t
      = ((cfg2.win 3).blk t).view.read (Elt Ideal) (G2 (V c main_v3) (V c main_arg3) (V c main_v4)) := by
  show (cfg2.win 3).cut (grid2.coords t) ((dat2 V c).after 3 t) = _
  rw [after2_3]
  unfold out2_3
  rw [View.canon_unit_zero zero_offsets2]
  simp only [View.ld_unit_zero (S := S512x1024) zero_offsets2, View.ld_unit_zero (S := S1024x1024) zero_offsets2,
    View.ld_unit_zero (S := S1x1024) zero_offsets2]
  obtain ⟨e0, e1, e2, e3, e4, e5, e6, e7⟩ := idx_facts2 t
  funext j
  show k2_pay1 (F := Ideal) (iblk2 V c 0 t) (iblk2 V c 1 t) (iblk2 V c 2 t) (win2_3.xinj (grid2.coords t) j)
    = G2 (V c main_v3) (V c main_arg3) (V c main_v4) (((cfg2.win 3).blk t).view.emb j)
  refine (pay2_at_idx _ _ _ _).trans ?_
  unfold G2
  refine congrArg₂ (· + ·) (Finset.sum_congr rfl fun k _ => congrArg₂ (· * ·) ?_ ?_) ?_
  · show V c main_v3 (((cfg2.win 0).blk t).view.emb (ix2 _ k)) = V c main_v3 (ix2 _ k)
    refine congrArg (V c main_v3) (funext fun a => Fin.ext ?_)
    match a with
    | ⟨0, _⟩ =>
      show win2_0.index t (0 : Fin 2) * 512 + 1 * (j 0).val = win2_3.index t (0 : Fin 2) * 512 + 1 * (j 0).val
      omega
    | ⟨1, _⟩ =>
      show win2_0.index t (1 : Fin 2) * 1024 + 1 * k.val = k.val
      omega
  · show V c main_arg3 (((cfg2.win 1).blk t).view.emb (ix2 k _)) = V c main_arg3 (ix2 k _)
    refine congrArg (V c main_arg3) (funext fun a => Fin.ext ?_)
    match a with
    | ⟨0, _⟩ =>
      show win2_1.index t (0 : Fin 2) * 1024 + 1 * k.val = k.val
      omega
    | ⟨1, _⟩ =>
      show win2_1.index t (1 : Fin 2) * 1024 + 1 * (j 1).val = win2_3.index t (1 : Fin 2) * 1024 + 1 * (j 1).val
      omega
  · show V c main_v4 (((cfg2.win 2).blk t).view.emb (ix2 0 _)) = V c main_v4 (ix2 0 _)
    refine congrArg (V c main_v4) (funext fun a => Fin.ext ?_)
    match a with
    | ⟨0, _⟩ =>
      show win2_2.index t (0 : Fin 2) * 1 + 1 * 0 = 0
      omega
    | ⟨1, _⟩ =>
      show win2_2.index t (1 : Fin 2) * 1024 + 1 * (j 1).val = win2_3.index t (1 : Fin 2) * 1024 + 1 * (j 1).val
      omega

/-- An index of the output array is in point t's block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v5).slice (win2_3.rect t)).set ↔ _
  rw [View.set_slice_whole, Rect.mem_set_unit]
  exact Iff.rfl

/-- The blocks tile the output: entry (r, e) is in the block of the point with block index (r / 512, e / 1024). -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 1024 ≤ (i 1).val ∧ (i 1).val < win2_3.index t (1 : Fin 2) * 1024 + 1024
    omega

/-- The output array after the launch is G2 of the three arrays as the launch finds them. -/
theorem final2 (c : Dev nD) :
    (dat2 V c).arrAt 3 cfg2.N = G2 (V c main_v3) (V c main_arg3) (V c main_v4) :=
  (dat2 V c).arrAt_eq_of_cover 3 (G2 (V c main_v3) (V c main_arg3) (V c main_v4)) (fun t _ => flushed2_eq V c t) cover2

/-- The output array after the launch at entry (r, e), the three arrays the launch finds named x, w, bb:
    (Σ_k x[r, k] · W[k, e]) + bias[0, e]. -/
theorem final2_of (c : Dev nD) (x : S4096x1024.Idx → EReal) (w : S1024x1024.Idx → EReal) (bb : S1x1024.Idx → EReal)
    (hx : V c main_v3 = x) (hw : V c main_arg3 = w) (hb : V c main_v4 = bb) (r : Fin 4096) (e : Fin 1024) :
    (dat2 (F := Ideal) V c).arrAt 3 cfg2.N (ix2 r e) = (∑ k : Fin 1024, x (ix2 r k) * w (ix2 k e)) + bb (ix2 0 e) := by
  subst hx hw hb
  exact (congrFun (final2 V c) (ix2 r e)).trans (G2_at _ _ _ r e)

/-- The same, the arrays read off V in place. -/
theorem final2_at (c : Dev nD) (r : Fin 4096) (e : Fin 1024) :
    (dat2 (F := Ideal) V c).arrAt 3 cfg2.N (ix2 r e)
      = HAdd.hAdd (α := EReal) (β := EReal) (γ := EReal)
          (∑ k : Fin 1024, HMul.hMul (α := EReal) (β := EReal) (γ := EReal) (V c main_v3 (ix2 r k)) (V c main_arg3 (ix2 k e)))
          (V c main_v4 (ix2 0 e)) :=
  final2_of V c _ _ _ rfl rfl rfl r e

end Cert.KernelIdeal.HandV

end
-- ==== Proof.KiValue.lean ====
/-
  The kernel's result array is the layer's specification in the kernel's arrangement.

  The first launch's output at row b·2048 + s, column e, is the fused projection of token (b, s) at column e; the
  attention launch's output at that row, column h·64 + d, is head h's context of query token (b, s) — the quotient
  (Σ_j p_j · v_j) / Σ_j p_j of the row function at the fused projection's columns of head h; the last launch's output
  is the output projection of those 1024 context columns plus the bias; and the final reshape reads it back at token
  (b, s).
-/
import proofs.«107029_g85925115723924_cont_9to1c4b_374_6_alg».proof.Proof.KiValueHost
import proofs.«107029_g85925115723924_cont_9to1c4b_374_6_alg».proof.Proof.SpecRow
import proofs.«107029_g85925115723924_cont_9to1c4b_374_6_alg».proof.Proof.KiFinal0
import proofs.«107029_g85925115723924_cont_9to1c4b_374_6_alg».proof.Proof.KiFinal1
import proofs.«107029_g85925115723924_cont_9to1c4b_374_6_alg».proof.Proof.KiFinal2

noncomputable section

open scoped BigOperators

namespace Cert.KernelIdeal.HandV

open Cert.KernelIdeal Cert.KernelIdeal.Gen Cert.KernelIdeal.Hand Cert.Attn
open Idealize.ShloMosaic Idealize.ShloMosaic.ValueIdx Idealize.ShloMosaic.TcCoe

/-- Column h·64 + d of the context array is head h, feature d. -/
def colOf (h : Fin 16) (d : Fin 64) : Fin 1024 := ⟨h.val * 64 + d.val, by omega⟩

/-- Every context column is its head's and feature's column. -/
theorem colOf_head_feat (k : Fin 1024) : colOf (headOf k) (featOf k) = k :=
  Fin.ext (by show k.val / 64 * 64 + k.val % 64 = k.val; omega)

/-- The row function depends on its three arrays only through their entries. -/
theorem attnRow_ext {q q' : Fin 64 → EReal} {K K' V V' : Fin 2048 → Fin 64 → EReal} (n : ℕ) (f : Fin 64)
    (hq : ∀ d, q d = q' d) (hK : ∀ j d, K j d = K' j d) (hV : ∀ j d, V j d = V' j d) :
    attnRow q K V n f = attnRow q' K' V' n f := by
  have e1 : q = q' := funext hq
  have e2 : K = K' := funext fun j => funext (hK j)
  have e3 : V = V' := funext fun j => funext (hV j)
  rw [e1, e2, e3]

variable (m : (ℓ : Loc nD τ sig) → Buf (Elt Ideal) ℓ) (ρ : Dev nD → PrngReg) (c : Dev nD)

/-- The first launch's output at row b·2048 + s, column e, is the fused projection of token (b, s) at column e. -/
theorem proj_value (b : Fin 2) (s : Fin 2048) (e : Fin 3072) :
    (W2 (F := Ideal) m ρ c (Proc.devRef .tc main_v2) : S4096x3072.Idx → EReal) (ix2 (rowOf b s) e)
      = qkv (m ((c.tc : Thread nD τ).loc main_arg0)) (m ((c.tc : Thread nD τ).loc main_arg1))
          (m ((c.tc : Thread nD τ).loc main_arg2)) b s e := by
  rw [W2_out]
  refine (final0_of (U1 (F := Ideal) m ρ) c _ _ _ (W1_tokens m ρ c) (W1_keep m ρ c main_arg1 (by decide)) (W1_bias m ρ c)
    (rowOf b s) e).trans ?_
  unfold qkv
  refine congrArg₂ (· + ·) (Finset.sum_congr rfl fun k _ => congrArg₂ (· * ·) ?_ rfl) ?_
  · exact merge_tokens_apply _ _ b s k
  · exact shapeCast_a_1a_apply _ _ (0 : Fin 1) e

/-- The attention launch's output at row b·2048 + i, column h·64 + d, is head h's context of query token (b, i). -/
theorem ctx_value (b : Fin 2) (i : Fin 2048) (h : Fin 16) (d : Fin 64) :
    (W3 (F := Ideal) m ρ c (Proc.devRef .tc main_v3) : S4096x1024.Idx → EReal) (ix2 (rowOf b i) (colOf h d))
      = ctxK (qkv (m ((c.tc : Thread nD τ).loc main_arg0)) (m ((c.tc : Thread nD τ).loc main_arg1))
          (m ((c.tc : Thread nD τ).loc main_arg2))) b i h d := by
  rw [W3_out]
  refine (final1_at (U2 (F := Ideal) m ρ) c b i h d).trans ?_
  rw [ctxK_eq_attnRow]
  have hp : ∀ (j : Fin 2048) (e : Fin 3072),
      (U2 (F := Ideal) m ρ c main_v2 : S4096x3072.Idx → EReal) (ix2 (⟨b.val * 2048 + j.val, by omega⟩ : Fin 4096) e)
        = qkv (m ((c.tc : Thread nD τ).loc main_arg0)) (m ((c.tc : Thread nD τ).loc main_arg1))
            (m ((c.tc : Thread nD τ).loc main_arg2)) b j e :=
    fun j e => proj_value m ρ c b j e
  exact attnRow_ext i.val d (fun d' => hp i (qcol h d')) (fun j d' => hp j (kcol h d')) (fun j d' => hp j (vcol h d'))

/-- The last launch's output at row b·2048 + i, column e, is the output projection of token (b, i)'s contexts. -/
theorem out_value (b : Fin 2) (i : Fin 2048) (e : Fin 1024) :
    (W5 (F := Ideal) m ρ c (Proc.devRef .tc main_v5) : S4096x1024.Idx → EReal) (ix2 (rowOf b i) e)
      = outOf (ctxK (qkv (m ((c.tc : Thread nD τ).loc main_arg0)) (m ((c.tc : Thread nD τ).loc main_arg1))
          (m ((c.tc : Thread nD τ).loc main_arg2)))) (m ((c.tc : Thread nD τ).loc main_arg3))
          (m ((c.tc : Thread nD τ).loc main_arg4)) b i e := by
  rw [W5_out]
  refine (final2_of (U4 (F := Ideal) m ρ) c _ _ _ (W4_keep m ρ c main_v3 (by decide)) (W4_weight m ρ c) (W4_bias m ρ c)
    (rowOf b i) e).trans ?_
  unfold outOf
  refine congrArg₂ (· + ·) (Finset.sum_congr rfl fun k _ => congrArg₂ (· * ·) ?_ rfl) ?_
  · refine (congrArg (fun t : Fin 1024 => (W3 (F := Ideal) m ρ c (Proc.devRef .tc main_v3) : S4096x1024.Idx → EReal)
      (ix2 (rowOf b i) t)) (colOf_head_feat k).symm).trans ?_
    exact ctx_value m ρ c b i (headOf k) (featOf k)
  · rw [W3_arg m ρ c main_arg4 (by decide) (by decide) (by decide)]
    exact shapeCast_a_1a_apply _ _ (0 : Fin 1) e

/-- THE KERNEL'S RESULT: the result buffer after the whole run holds, at (b, i, e), the layer's specification in the
    kernel's arrangement, of the five argument arrays as launched. -/
theorem kernel_value (b : Fin 2) (i : Fin 2048) (e : Fin 1024) :
    W6 (F := Ideal) m ρ c (Proc.devRef .tc main_v6) (ix3 b i e)
      = Cert.Attn.specK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b i e := by
  refine (W6_result_at m ρ c b i e).trans ?_
  unfold specK
  exact out_value m ρ c b i e

end Cert.KernelIdeal.HandV

end
-- ==== Proof.RefValueProj.lean ====
/-
  The reference's fused projection and its split into heads, read at an index.

  The reference multiplies each token by the [1024, 3072] weight, adds the bias, cuts the 3072 columns into three
  blocks of 1024 (queries, keys, values), and reshapes each block into 16 heads of 64 features with the head axis moved
  in front of the token axis. Read at (b, h, i, d) each of the three is the fused projection of token (b, i) at column
  h·64 + d of its block.
-/
import proofs.«107029_g85925115723924_cont_9to1c4b_374_6_alg».proof.Proof.Spec
import proofs.«107029_g85925115723924_cont_9to1c4b_374_6_alg».proof.Proof.Gen.ReferenceIdeal.Read

noncomputable section

open scoped BigOperators

namespace Cert.Attn.Ref

open Idealize.ShloMosaic Idealize.ShloMosaic.ValueIdx Cert.ReferenceIdeal Cert.ReferenceIdeal.Read Cert.Attn

variable (x0 : (⟨3, ![2, 2048, 1024]⟩ : Shape).Idx → EReal) (x1 : (⟨2, ![1024, 3072]⟩ : Shape).Idx → EReal)
  (x2 : (⟨1, ![3072]⟩ : Shape).Idx → EReal)

/-- The projection plus bias at token (b, s), column e. -/
theorem proj_at (b : Fin 2) (s : Fin 2048) (e : Fin 3072) :
    val_main_v3 (F := Ideal) x0 x1 x2 (ix3 b s e) = qkv x0 x1 x2 b s e := by
  rw [val_main_v3_apply, val_main_v0_apply, val_main_v2_apply, val_main_v1_apply]
  unfold qkv
  rw [Ideal.addf_def]
  refine congrArg₂ (· + ·) (Finset.sum_congr rfl fun k _ => ?_) ?_
  · refine congrArg₂ (· * ·) (congrArg x0 ?_) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x2 (funext fun a => Fin.ext (by match a with | ⟨0, _⟩ => rfl))

/-- The query block in heads: entry (b, h, i, d) is the projection of token (b, i) at column h·64 + d. -/
theorem q_at (b : Fin 2) (h : Fin 16) (i : Fin 2048) (d : Fin 64) :
    val_main_v8 (F := Ideal) x0 x1 x2 (ix4 b h i d) = qkv x0 x1 x2 b i (qcol h d) := by
  rw [val_main_v8_apply, val_main_v7_apply, val_main_v4_apply, ← proj_at]
  refine congrArg (val_main_v3 (F := Ideal) x0 x1 x2) ?_
  have hb := b.isLt; have hh := h.isLt; have hi := i.isLt; have hd := d.isLt
  refine funext fun a => Fin.ext ?_
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => show (((b.val * 2048 + i.val) * 16 + h.val) * 64 + d.val) % 1024 = h.val * 64 + d.val; omega

/-- The key block in heads. -/
theorem k_at (b : Fin 2) (h : Fin 16) (i : Fin 2048) (d : Fin 64) :
    val_main_v10 (F := Ideal) x0 x1 x2 (ix4 b h i d) = qkv x0 x1 x2 b i (kcol h d) := by
  rw [val_main_v10_apply, val_main_v9_apply, val_main_v5_apply, ← proj_at]
  refine congrArg (val_main_v3 (F := Ideal) x0 x1 x2) ?_
  have hb := b.isLt; have hh := h.isLt; have hi := i.isLt; have hd := d.isLt
  refine funext fun a => Fin.ext ?_
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => show 1024 + (((b.val * 2048 + i.val) * 16 + h.val) * 64 + d.val) % 1024 = 1024 + h.val * 64 + d.val; omega

/-- The value block in heads. -/
theorem v_at (b : Fin 2) (h : Fin 16) (i : Fin 2048) (d : Fin 64) :
    val_main_v12 (F := Ideal) x0 x1 x2 (ix4 b h i d) = qkv x0 x1 x2 b i (vcol h d) := by
  rw [val_main_v12_apply, val_main_v11_apply, val_main_v6_apply, ← proj_at]
  refine congrArg (val_main_v3 (F := Ideal) x0 x1 x2) ?_
  have hb := b.isLt; have hh := h.isLt; have hi := i.isLt; have hd := d.isLt
  refine funext fun a => Fin.ext ?_
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => show 2048 + (((b.val * 2048 + i.val) * 16 + h.val) * 64 + d.val) % 1024 = 2048 + h.val * 64 + d.val; omega

end Cert.Attn.Ref

end
-- ==== Proof.RefValueScores.lean ====
/-
  The reference's causally masked, scaled scores, read at an index.

  The reference's mask is the lower triangle of a square of ones: row index (as a 32-bit word) plus zero, compared
  signed-greater-or-equal with the column index. Both indices are below 2048, so the words are the numbers themselves
  and the bit is set exactly where the key token is not after the query token. Where it is set the score is the inner
  product of the head's query and key features times the scale; elsewhere it is the fill.
-/
import proofs.«107029_g85925115723924_cont_9to1c4b_374_6_alg».proof.Proof.RefValueProj
import Idealize.ShloMosaic.Lib.Affine

noncomputable section

open scoped BigOperators

namespace Cert.Attn.Ref

open Idealize.ShloMosaic Idealize.ShloMosaic.ValueIdx Cert.ReferenceIdeal Cert.ReferenceIdeal.Read Cert.Attn

/-- A number below 2048 as a 32-bit word, read signed, is the number. -/
theorem toInt_small (n : ℕ) (hn : n < 2048) : (BitVec.ofNat 32 n).toInt = (n : ℤ) := by
  rw [BitVec.toInt_eq_toNat_of_lt (by rw [BitVec.toNat_ofNat]; omega), BitVec.toNat_ofNat]
  omega

/-- The lower-triangle test on words: row + 0 ≥ column, signed, exactly when column ≤ row. -/
theorem tril_bit (i j : ℕ) (hi : i < 2048) (hj : j < 2048) :
    IntOp.cmpi .sge (IntOp.addi (BitVec.ofNat 32 i) 0#32) (BitVec.ofNat 32 j) = 1#1 ↔ j ≤ i := by
  rw [IntOp.cmpi_sge, IntOp.addi, BitVec.add_zero, toInt_small i hi, toInt_small j hj]
  omega

/-- The mask broadcast over batch and heads: set at (b, h, i, j) exactly when j ≤ i. -/
theorem mask_at (b : Fin 2) (h : Fin 16) (i j : Fin 2048) :
    val_main_call1_v0 (F := Ideal) (ix4 b h i j) = 1#1 ↔ j.val ≤ i.val := by
  rw [val_main_call1_v0_apply, val_main_v18_apply, val_main_v17_apply, val_main_call0_v4_apply, val_main_call0_v2_apply,
    val_main_call0_v0_apply, val_main_call0_v1_apply, val_main_call0_c_apply, val_main_call0_v3_apply, val_main_v16_apply,
    val_main_c_apply, val_main_call0_v5_apply, val_main_call0_c_0_apply]
  show Scalar.select (IntOp.cmpi .sge (IntOp.addi (BitVec.ofNat 32 i.val) 0#32) (BitVec.ofNat 32 j.val)) 1#1 0#1 = 1#1 ↔ _
  by_cases hc : IntOp.cmpi .sge (IntOp.addi (BitVec.ofNat 32 i.val) 0#32) (BitVec.ofNat 32 j.val) = 1#1
  · rw [hc, select_one]
    exact ⟨fun _ => (tril_bit i.val j.val i.isLt j.isLt).mp hc, fun _ => rfl⟩
  · rw [eq_zero_of_ne_one hc, select_zero]
    exact ⟨fun h0 => absurd h0 (by decide), fun hji => absurd ((tril_bit i.val j.val i.isLt j.isLt).mpr hji) hc⟩

variable (x0 : (⟨3, ![2, 2048, 1024]⟩ : Shape).Idx → EReal) (x1 : (⟨2, ![1024, 3072]⟩ : Shape).Idx → EReal)
  (x2 : (⟨1, ![3072]⟩ : Shape).Idx → EReal)

/-- The masked, scaled scores at (b, h, i, j). -/
theorem scores_at (b : Fin 2) (h : Fin 16) (i j : Fin 2048) :
    val_main_v19 (F := Ideal) x0 x1 x2 (ix4 b h i j) = srow (qkv x0 x1 x2) b h i j := by
  rw [val_main_v19_apply]
  show _ = if j.val ≤ i.val then (∑ d : Fin 64, qkv x0 x1 x2 b i (qcol h d) * qkv x0 x1 x2 b j (kcol h d)) * scaleC else fillC
  by_cases hji : j.val ≤ i.val
  · rw [(mask_at b h i j).mpr hji, select_one, if_pos hji, val_main_v15_apply, val_main_v13_apply, val_main_v14_apply,
      val_main_cst_apply, Ideal.mulf_def, Ideal.ofBits_def]
    refine congrArg (· * scaleC) (Finset.sum_congr rfl fun k _ => ?_)
    rw [← q_at, ← k_at]
    refine congrArg₂ (· * ·) (congrArg (val_main_v8 (F := Ideal) x0 x1 x2) ?_) (congrArg (val_main_v10 (F := Ideal) x0 x1 x2) ?_)
    · exact funext fun a => Fin.ext (by match a with | ⟨0, _⟩ => rfl | ⟨1, _⟩ => rfl | ⟨2, _⟩ => rfl | ⟨3, _⟩ => rfl)
    · exact funext fun a => Fin.ext (by match a with | ⟨0, _⟩ => rfl | ⟨1, _⟩ => rfl | ⟨2, _⟩ => rfl | ⟨3, _⟩ => rfl)
  · rw [eq_zero_of_ne_one (mt (mask_at b h i j).mp hji), select_zero, if_neg hji, val_main_call1_v1_apply,
      val_main_cst_0_apply, Ideal.ofBits_def]
    rfl

end Cert.Attn.Ref

end
-- ==== Proof.RefValueSoftmax.lean ====
/-
  The reference's softmax over the key axis, read at an index.

  The reference takes the largest score of each query row (a fold of the maximum over the key axis from the -inf word,
  then once more the maximum with -inf, which changes nothing), subtracts it, exponentiates, sums the exponentials over
  the key axis from the zero word, and divides. Read at (b, h, i, j) that is the softmax weight of key token j among
  the masked scores of query token i.
-/
import proofs.«107029_g85925115723924_cont_9to1c4b_374_6_alg».proof.Proof.RefValueScores

noncomputable section

open scoped BigOperators

namespace Cert.Attn.Ref

open Idealize.ShloMosaic Idealize.ShloMosaic.ValueIdx Cert.ReferenceIdeal Cert.ReferenceIdeal.Gen Cert.ReferenceIdeal.Read Cert.Attn Cert.SoftmaxLib

/-- The key axis of the score array is a single dropped axis. -/
theorem keyAxis : S2x16x2048x2048.Reduces [3] S2x16x2048 := by decide

/-- The score index over (b, h, i) with key token k put back on the dropped axis. -/
theorem lift_key (b : Fin 2) (h : Fin 16) (i k : Fin 2048) : keyAxis.lift (ix3 b h i) k = ix4 b h i k :=
  funext fun c => Fin.ext (by match c with | ⟨0, _⟩ => rfl | ⟨1, _⟩ => rfl | ⟨2, _⟩ => rfl | ⟨3, _⟩ => rfl)

variable (x0 : (⟨3, ![2, 2048, 1024]⟩ : Shape).Idx → EReal) (x1 : (⟨2, ![1024, 3072]⟩ : Shape).Idx → EReal)
  (x2 : (⟨1, ![3072]⟩ : Shape).Idx → EReal)

/-- The row maximum at (b, h, i) is the largest masked score of query token i. -/
theorem top_at (b : Fin 2) (h : Fin 16) (i : Fin 2048) :
    val_main_v22 (F := Ideal) x0 x1 x2 (ix3 b h i) = rowTop (srow (qkv x0 x1 x2) b h i) := by
  rw [val_main_v22_apply, val_main_v21_apply, val_main_cst_2_apply, Ideal.maximumf_def, Ideal.ofBits_def,
    Cert.BitFolds.ofBits_neg_inf_f32, max_eq_right bot_le]
  unfold val_main_v20
  refine (Host.reduce_eq_fold_single (FloatOps.maximumf (F := Ideal) (φ := .f32)) (val_main_v19 (F := Ideal) x0 x1 x2)
    (val_main_cst_1 (F := Ideal)) reducesTo_S2x16x2048x2048_S2x16x2048_d3 keyAxis h_S_ (ix3 b h i)).trans ?_
  unfold rowTop
  rw [val_main_cst_1_apply, Ideal.ofBits_def, Cert.BitFolds.ofBits_neg_inf_f32]
  refine congrArg (fun f => (Finset.univ : Finset (Fin 2048)).fold max (⊥ : EReal) f) ?_
  refine funext fun (k : Fin 2048) => ?_
  exact (congrArg (val_main_v19 (F := Ideal) x0 x1 x2) (lift_key b h i k)).trans (scores_at x0 x1 x2 b h i k)

/-- The shifted exponential at (b, h, i, j). -/
theorem shifted_at (b : Fin 2) (h : Fin 16) (i j : Fin 2048) :
    val_main_v26 (F := Ideal) x0 x1 x2 (ix4 b h i j)
      = Ideal.exp (srow (qkv x0 x1 x2) b h i j - rowTop (srow (qkv x0 x1 x2) b h i)) := by
  rw [val_main_v26_apply, val_main_v25_apply, val_main_v24_apply, val_main_v23_apply, Ideal.hostUnary_exp_def,
    Ideal.subf_def, scores_at, ← top_at]
  refine congrArg (fun t => Ideal.exp (srow (qkv x0 x1 x2) b h i j - val_main_v22 (F := Ideal) x0 x1 x2 t)) ?_
  exact funext fun a => Fin.ext (by match a with | ⟨0, _⟩ => rfl | ⟨1, _⟩ => rfl | ⟨2, _⟩ => rfl)

/-- The sum of the shifted exponentials over the key axis at (b, h, i). -/
theorem denom_at (b : Fin 2) (h : Fin 16) (i : Fin 2048) :
    val_main_v27 (F := Ideal) x0 x1 x2 (ix3 b h i)
      = ∑ k : Fin 2048, Ideal.exp (srow (qkv x0 x1 x2) b h i k - rowTop (srow (qkv x0 x1 x2) b h i)) := by
  rw [val_main_v27_apply, val_main_cst_3_apply, Ideal.ofBits_def, Ideal.ofBits_zero_f32, zero_add]
  refine Finset.sum_congr rfl fun k _ => ?_
  rw [← shifted_at]
  refine congrArg (val_main_v26 (F := Ideal) x0 x1 x2) ?_
  exact funext fun a => Fin.ext (by match a with | ⟨0, _⟩ => rfl | ⟨1, _⟩ => rfl | ⟨2, _⟩ => rfl | ⟨3, _⟩ => rfl)

/-- THE WEIGHTS: the reference's softmax at (b, h, i, j) is the softmax weight of j among row i's masked scores. -/
theorem weights_at (b : Fin 2) (h : Fin 16) (i j : Fin 2048) :
    val_main_v30 (F := Ideal) x0 x1 x2 (ix4 b h i j) = rowWeight (srow (qkv x0 x1 x2) b h i) j := by
  rw [val_main_v30_apply, val_main_v29_apply, val_main_v28_apply, Ideal.hostDivf_def, shifted_at]
  unfold rowWeight
  refine congrArg (Ideal.div _) ?_
  rw [← denom_at]
  refine congrArg (val_main_v27 (F := Ideal) x0 x1 x2) ?_
  exact funext fun a => Fin.ext (by match a with | ⟨0, _⟩ => rfl | ⟨1, _⟩ => rfl | ⟨2, _⟩ => rfl)

end Cert.Attn.Ref

end
-- ==== Proof.RefValue.lean ====
/-
  The reference's attention context, its output projection, and the reference's result as the layer's specification.

  With the softmax weights and the value block read at an index, the reference's context at (b, h, i, d) is the weighted
  sum Σ_j w_j · v_j over the key tokens; moving the head axis back behind the token axis and merging heads and features
  puts head c / 64, feature c % 64 at column c; the output projection sums those 1024 columns against the output weight
  and adds the bias.
-/
import proofs.«107029_g85925115723924_cont_9to1c4b_374_6_alg».proof.Proof.RefValueSoftmax

noncomputable section

open scoped BigOperators

namespace Cert.Attn.Ref

open Idealize.ShloMosaic Idealize.ShloMosaic.ValueIdx Cert.ReferenceIdeal Cert.ReferenceIdeal.Read Cert.Attn Cert.SoftmaxLib

variable (x0 : (⟨3, ![2, 2048, 1024]⟩ : Shape).Idx → EReal) (x1 : (⟨2, ![1024, 3072]⟩ : Shape).Idx → EReal)
  (x2 : (⟨1, ![3072]⟩ : Shape).Idx → EReal)

/-- The context at (b, h, i, d): the values of head h weighted by query token i's softmax weights. -/
theorem ctx_at (b : Fin 2) (h : Fin 16) (i : Fin 2048) (d : Fin 64) :
    val_main_v31 (F := Ideal) x0 x1 x2 (ix4 b h i d) = ctxR (qkv x0 x1 x2) b i h d := by
  rw [val_main_v31_apply]
  unfold ctxR
  refine Finset.sum_congr rfl fun k _ => ?_
  rw [← weights_at, ← v_at]
  refine congrArg₂ (· * ·) (congrArg (val_main_v30 (F := Ideal) x0 x1 x2) ?_) (congrArg (val_main_v12 (F := Ideal) x0 x1 x2) ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

/-- The heads' contexts side by side: column c of token (b, i) is head c / 64, feature c % 64. -/
theorem merged_at (b : Fin 2) (i : Fin 2048) (c : Fin 1024) :
    val_main_v33 (F := Ideal) x0 x1 x2 (ix3 b i c) = ctxR (qkv x0 x1 x2) b i (headOf c) (featOf c) := by
  rw [val_main_v33_apply, val_main_v32_apply, ← ctx_at]
  refine congrArg (val_main_v31 (F := Ideal) x0 x1 x2) ?_
  have hb := b.isLt; have hi := i.isLt; have hc := c.isLt
  refine funext fun a => Fin.ext ?_
  match a with
  | ⟨0, _⟩ => show ((b.val * 2048 + i.val) * 1024 + c.val) / 2097152 = b.val; omega
  | ⟨1, _⟩ => show ((b.val * 2048 + i.val) * 1024 + c.val) / 64 % 16 = c.val / 64; omega
  | ⟨2, _⟩ => show ((b.val * 2048 + i.val) * 1024 + c.val) / 1024 % 2048 = i.val; omega
  | ⟨3, _⟩ => show ((b.val * 2048 + i.val) * 1024 + c.val) % 64 = c.val % 64; omega

variable (x3 : (⟨2, ![1024, 1024]⟩ : Shape).Idx → EReal) (x4 : (⟨1, ![1024]⟩ : Shape).Idx → EReal)

/-- The last stage at (b, i, e) is the layer in the reference's arrangement. -/
theorem out_at (b : Fin 2) (i : Fin 2048) (e : Fin 1024) :
    val_main_v37 (F := Ideal) x0 x1 x2 x3 x4 (ix3 b i e) = specR x0 x1 x2 x3 x4 b i e := by
  rw [val_main_v37_apply, val_main_v34_apply, val_main_v36_apply, val_main_v35_apply, Ideal.addf_def]
  unfold specR outOf
  refine congrArg₂ (· + ·) (Finset.sum_congr rfl fun k _ => ?_) (congrArg x4 ?_)
  · rw [← merged_at]
    refine congrArg₂ (· * ·) (congrArg (val_main_v33 (F := Ideal) x0 x1 x2) ?_) (congrArg x3 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- THE REFERENCE'S RESULT: after the reference's run the result buffer holds, at (b, i, e), the layer's specification
    in the reference's arrangement, of the five argument arrays. -/
theorem result_eq (m : (ℓ : Loc Cert.ReferenceIdeal.nD Cert.ReferenceIdeal.τ Cert.ReferenceIdeal.sig) → Buf (Elt Ideal) ℓ)
    (c : Dev Cert.ReferenceIdeal.nD) (b : Fin 2) (i : Fin 2048) (e : Fin 1024) :
    Cert.ReferenceIdeal.Value.res_main_v37 (F := Ideal) m c (ix3 b i e)
      = Cert.Attn.specR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) b i e := by
  rw [val_main_v37_eq]
  exact out_at _ _ _ _ _ b i e

end Cert.Attn.Ref

end
-- ==== Proof.Algebra.lean ====
/-
  The two arrangements of the attention quotient agree on real-valued inputs.

  Over the extended reals a product does not distribute over a sum in general, so the step
  (Σ_j p_j · v_j) / l = Σ_j (p_j / l) · v_j needs the divisor l = Σ_j p_j to be a positive real. That holds when every
  score is a real: the row maximum is then one of the scores, each p_j = exp(s_j − max s) is a positive real, and so is
  their sum. The scores are reals when the fused projection is real-valued (a finite sum of products of reals, times the
  real scale, or the real fill), and the fused projection is real-valued when input, weight and bias are.
-/
import proofs.«107029_g85925115723924_cont_9to1c4b_374_6_alg».proof.Proof.SpecRow
import Mathlib.Data.EReal.Inv
import Mathlib.Analysis.SpecialFunctions.Exp

noncomputable section

open scoped BigOperators

namespace Cert.Attn.Alg

open Idealize.ShloMosaic Idealize.ShloMosaic.ValueIdx Cert.SoftmaxLib Cert.Attn

/-! ### Real-valued extended reals are closed under finite sums and products -/

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t ?_ ?_
  · simp
  · intro a u ha ih
    rw [Finset.sum_insert ha, Finset.sum_insert ha, EReal.coe_add, ih]

/-- A product of two reals is a real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two reals is a real. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- A finite sum of reals is a real. -/
theorem sum_real {ι : Type*} (t : Finset ι) (f : ι → EReal) (hf : ∀ i, ∃ r : ℝ, f i = (r : EReal)) :
    ∃ r : ℝ, ∑ i ∈ t, f i = (r : EReal) := by
  choose g hg using hf
  exact ⟨∑ i ∈ t, g i, by rw [coe_sum]; exact Finset.sum_congr rfl fun i _ => hg i⟩

/-! ### The two constants are reals -/

/-- The scale word denotes the real 1/8. -/
theorem scaleC_eq : scaleC = ((1 / 8 : ℝ) : EReal) := by
  unfold scaleC
  simp [Ideal.ofBits, Ideal.ieee, -EReal.coe_mul]; norm_num

/-- The fill word denotes a real. -/
theorem fillC_real : ∃ r : ℝ, fillC = (r : EReal) := by
  unfold fillC
  simp [Ideal.ofBits, Ideal.ieee, -EReal.coe_mul]
  exact ⟨_, (EReal.coe_neg _).symm⟩

/-! ### The fused projection and the scores are reals -/

/-- (a) The fused projection of real-valued input, weight and bias is real-valued. -/
theorem qkv_real (x : (⟨3, ![2, 2048, 1024]⟩ : Shape).Idx → EReal) (W : (⟨2, ![1024, 3072]⟩ : Shape).Idx → EReal)
    (bq : (⟨1, ![3072]⟩ : Shape).Idx → EReal)
    (hx : ∀ i, ∃ r : ℝ, x i = (r : EReal)) (hW : ∀ i, ∃ r : ℝ, W i = (r : EReal))
    (hb : ∀ i, ∃ r : ℝ, bq i = (r : EReal)) :
    ∀ b s e, ∃ r : ℝ, qkv x W bq b s e = (r : EReal) := by
  intro b s e
  unfold qkv
  exact add_real (sum_real _ _ fun d => mul_real (hx _) (hW _)) (hb _)

/-- Every masked, scaled score of a real-valued projection is a real. -/
theorem srow_real (Q : Fin 2 → Fin 2048 → Fin 3072 → EReal) (hQ : ∀ b s e, ∃ r : ℝ, Q b s e = (r : EReal))
    (b : Fin 2) (h : Fin 16) (i : Fin 2048) : ∀ j, ∃ r : ℝ, srow Q b h i j = (r : EReal) := by
  intro j
  unfold srow
  by_cases hji : j.val ≤ i.val
  · rw [if_pos hji]
    exact mul_real (sum_real _ _ fun d => mul_real (hQ _ _ _) (hQ _ _ _)) ⟨_, scaleC_eq⟩
  · rw [if_neg hji]
    exact fillC_real

/-! ### The largest of finitely many reals -/

/-- The fold of max from the bottom element over a nonempty finite family of reals bounds every member and is one of
    them. -/
theorem rowTop_spec {n : ℕ} (hn : 0 < n) (s : Fin n → EReal) (hs : ∀ j, ∃ r : ℝ, s j = (r : EReal)) :
    (∀ j, s j ≤ rowTop s) ∧ ∃ j₀, rowTop s = s j₀ := by
  have hle : ∀ j, s j ≤ rowTop s := fun j =>
    (Finset.le_fold_max _).mpr (Or.inr ⟨j, Finset.mem_univ j, le_refl _⟩)
  refine ⟨hle, ?_⟩
  rcases (Finset.le_fold_max (s := Finset.univ) (f := s) (b := (⊥ : EReal)) (rowTop s)).mp (le_refl _)
    with h | ⟨x, _, hx⟩
  · exfalso
    obtain ⟨r, hr⟩ := hs ⟨0, hn⟩
    have h0 := le_trans (hle ⟨0, hn⟩) h
    rw [hr] at h0
    exact absurd (le_bot_iff.mp h0) (EReal.coe_ne_bot r)
  · exact ⟨x, le_antisymm hx (hle x)⟩

/-! ### The quotient taken last equals the weights taken first -/

/-- For real scores s and any values v: (Σ_j p_j · v_j) / Σ_j p_j = Σ_j (p_j / Σ p) · v_j with p_j = exp(s_j − max s).
    The divisor is a positive real, so its inverse is a nonnegative finite factor, and such a factor moves across the
    sum whatever the v_j are. -/
theorem div_sum_eq_sum_weight {n : ℕ} (hn : 0 < n) (s : Fin n → EReal) (hs : ∀ j, ∃ r : ℝ, s j = (r : EReal))
    (v : Fin n → EReal) :
    Ideal.div (∑ j : Fin n, Ideal.exp (s j - rowTop s) * v j) (∑ j : Fin n, Ideal.exp (s j - rowTop s))
      = ∑ j : Fin n, rowWeight s j * v j := by
  obtain ⟨_, j₀, hj₀⟩ := rowTop_spec hn s hs
  obtain ⟨t, ht⟩ := hs j₀
  rw [ht] at hj₀
  choose a ha using hs
  have hp : ∀ j, Ideal.exp (s j - rowTop s) = ((Real.exp (a j - t) : ℝ) : EReal) := fun j => by
    rw [ha j, hj₀, ← EReal.coe_sub, Ideal.exp_coe]
  have hl : (∑ j : Fin n, Ideal.exp (s j - rowTop s)) = ((∑ j : Fin n, Real.exp (a j - t) : ℝ) : EReal) := by
    rw [coe_sum]
    exact Finset.sum_congr rfl fun j _ => hp j
  have hLpos : 0 < ∑ j : Fin n, Real.exp (a j - t) :=
    Finset.sum_pos (fun j _ => Real.exp_pos _) ⟨⟨0, hn⟩, Finset.mem_univ _⟩
  have hl0 : (∑ j : Fin n, Ideal.exp (s j - rowTop s)) ≠ 0 := by
    rw [hl]
    exact fun h => hLpos.ne' (EReal.coe_eq_zero.mp h)
  have hlnn : 0 ≤ (∑ j : Fin n, Ideal.exp (s j - rowTop s)) := by
    rw [hl]
    exact EReal.coe_nonneg.mpr hLpos.le
  have hdiv : ∀ y, Ideal.div y (∑ j : Fin n, Ideal.exp (s j - rowTop s))
      = y * (∑ j : Fin n, Ideal.exp (s j - rowTop s))⁻¹ := fun y => by
    unfold Ideal.div
    rw [if_neg hl0]
  unfold rowWeight
  simp only [hdiv]
  exact (scaled_inner (EReal.inv_nonneg_of_nonneg hlnn) (EReal.inv_lt_top _).ne _ v).symm

/-- (b) On a real-valued projection the two arrangements of the context agree. -/
theorem ctxK_eq_ctxR (Q : Fin 2 → Fin 2048 → Fin 3072 → EReal) (hQ : ∀ b s e, ∃ r : ℝ, Q b s e = (r : EReal))
    (b : Fin 2) (i : Fin 2048) (h : Fin 16) (d : Fin 64) : ctxK Q b i h d = ctxR Q b i h d := by
  unfold ctxK ctxR pexp
  exact div_sum_eq_sum_weight (by norm_num) (srow Q b h i) (srow_real Q hQ b h i) (fun j => Q b j (vcol h d))

/-- (c) On real-valued input, weight and bias the two arrangements of the layer agree. -/
theorem specK_eq_specR (x : (⟨3, ![2, 2048, 1024]⟩ : Shape).Idx → EReal) (W : (⟨2, ![1024, 3072]⟩ : Shape).Idx → EReal)
    (bq : (⟨1, ![3072]⟩ : Shape).Idx → EReal) (Wo : (⟨2, ![1024, 1024]⟩ : Shape).Idx → EReal)
    (bo : (⟨1, ![1024]⟩ : Shape).Idx → EReal)
    (hx : ∀ i, ∃ r : ℝ, x i = (r : EReal)) (hW : ∀ i, ∃ r : ℝ, W i = (r : EReal))
    (hb : ∀ i, ∃ r : ℝ, bq i = (r : EReal)) (b : Fin 2) (i : Fin 2048) (e : Fin 1024) :
    specK x W bq Wo bo b i e = specR x W bq Wo bo b i e := by
  unfold specK specR outOf
  refine congrArg (· + bo (ix1 e)) ?_
  refine Finset.sum_congr rfl fun c _ => ?_
  rw [ctxK_eq_ctxR (qkv x W bq) (qkv_real x W bq hx hW hb)]

end Cert.Attn.Alg

end
-- ==== Proof.Finite.lean ====
/-
  From the precondition to real-valued arguments.

  The precondition says that for each of the five argument arrays, every entry x has |x| < +inf, the five "all" results
  joined by "and", and that the whole is true. Over the extended reals |x| = max x (−x) is +inf exactly at the two
  infinities, so an entry with |x| < +inf is a real. A conjunction that is true has true conjuncts, and an "all" (a
  reduction by "and" over every axis, from true) that is true has every element true.
-/
import proofs.«107029_g85925115723924_cont_9to1c4b_374_6_alg».proof.Defs
import proofs.«107029_g85925115723924_cont_9to1c4b_374_6_alg».proof.Proof.Gen.Pre_finite_inputs
import Idealize.ShloMosaic.Lib.ReduceAll
import Idealize.ShloMosaic.Lib.ValueIdx

noncomputable section

namespace Cert.Attn.Fin'

open Idealize.ShloMosaic Idealize.ShloMosaic.ValueIdx Idealize.SL.Sem Cert.Pre_finite_inputs

/-- The rank-0 shape has one index. -/
instance : Subsingleton S_.Idx := ⟨fun _ _ => funext fun d => d.elim0⟩

/-- The word the comparison is made against denotes +inf. -/
theorem ofBits_inf : Ideal.ofBits .f32 0x7F800000#32 = (⊤ : EReal) := by
  simp [Ideal.ofBits, Ideal.ieee]

/-- An extended real whose absolute value max x (−x) lies strictly below +inf is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One "all(|x| < +inf)" that is true makes every entry of x a real. -/
theorem real_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi
        (cmpf .olt (Host.absf x) (broadcastInDim s ![] hb (constant (F := Ideal) S_ .f32 0x7F800000#32)))
        (constantI S_ 1 1#1) hr hS ix0 = 1#1) (i : s.Idx) :
    ∃ r : ℝ, x i = (r : EReal) :=
  real_of_abs_lt_inf (x i) (Host.reduce_andi_all _ _ hr hS ix0 e i)

/-- The printed predicate, true, makes all five arrays real-valued. -/
theorem real_of_fn [Cert.Pre_finite_inputs.Facts] (x0 : FVec Ideal S2x2048x1024 .f32) (x1 : FVec Ideal S1024x3072 .f32)
    (x2 : FVec Ideal S3072 .f32) (x3 : FVec Ideal S1024x1024 .f32) (x4 : FVec Ideal S1024 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all x0 _ _ _ h0', real_of_all x1 _ _ _ h1, real_of_all x2 _ _ _ h2, real_of_all x3 _ _ _ h3,
    real_of_all x4 _ _ _ h4⟩

/-- Under the precondition the kernel's argument arrays are real-valued on every device. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  real_of_fn _ _ _ _ _ (hpre c)

end Cert.Attn.Fin'

end
-- ==== Proof.lean ====
/-
  Causal multi-head self-attention (2 sequences of 2048 tokens, width 1024, 16 heads of 64) as three tiled launches —
  the fused query/key/value projection with bias; per head pair and block of 256 query tokens, the masked scaled scores
  against all 2048 key tokens, their row maximum, exponentials, row sum, the product with the values and the quotient
  by the row sum; the output projection with bias — against the plain array program that forms the same projection,
  the same masked scores, their softmax weights exp(s − max) / Σ exp(s − max), the weighted sum of the values and the
  same output projection.

  On the extended reals the two agree entry by entry. Every matrix product on either side is the same finite sum of
  products; the scale 1/8 and the fill of masked scores are the same words in both; tilings, reshapes and changes of
  float format do not change an entry. The one rearrangement is the quotient: the launch divides the weighted sum by
  the row sum, (Σ_j p_j · v_j) / Σ_j p_j, where the array program weighs each value by p_j / Σ p first. For inputs
  that are real numbers every score is real, the row maximum is attained, so Σ_j p_j is a real number between 1 and
  2048, and dividing by it is multiplying by a nonnegative finite constant, which distributes over the finite sum.
  That is where the precondition (every input entry finite) is used.

  Each of the two kernel programs (read at words, and read at extended reals) runs to its end without a fault and
  leaves the five argument arrays unchanged: its run is six segments — reshapes and three launches — over one thread
  state that names every unscoped buffer's contents; the attention launch reads the fused projection through three
  windows, between which that array's share is dealt and afterwards joined. The array program's run and its stages
  read at an index are the generated modules'. No operation of the kernel was rewritten for the reading at extended
  reals, so there is nothing to preserve beyond the text itself.
-/
import proofs.«107029_g85925115723924_cont_9to1c4b_374_6_alg».proof.Defs
import proofs.«107029_g85925115723924_cont_9to1c4b_374_6_alg».proof.Proof.Gen.Kernel
import proofs.«107029_g85925115723924_cont_9to1c4b_374_6_alg».proof.Proof.Gen.KernelIdeal
import proofs.«107029_g85925115723924_cont_9to1c4b_374_6_alg».proof.Proof.Gen.ReferenceIdeal
import proofs.«107029_g85925115723924_cont_9to1c4b_374_6_alg».proof.Proof.Gen.Pre_finite_inputs
import proofs.«107029_g85925115723924_cont_9to1c4b_374_6_alg».proof.Proof.Gen.ReferenceIdeal.Run
import proofs.«107029_g85925115723924_cont_9to1c4b_374_6_alg».proof.Proof.Gen.ReferenceIdeal.Read
import proofs.«107029_g85925115723924_cont_9to1c4b_374_6_alg».proof.Proof.KbRunC
import proofs.«107029_g85925115723924_cont_9to1c4b_374_6_alg».proof.Proof.KiRunC
import proofs.«107029_g85925115723924_cont_9to1c4b_374_6_alg».proof.Proof.KiValue
import proofs.«107029_g85925115723924_cont_9to1c4b_374_6_alg».proof.Proof.RefValue
import proofs.«107029_g85925115723924_cont_9to1c4b_374_6_alg».proof.Proof.Algebra
import proofs.«107029_g85925115723924_cont_9to1c4b_374_6_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel read at words runs to its end, faults nowhere and leaves its arguments unchanged. -/
theorem frame_k : Cert.frame_Kernel := fun m ρ _ => Cert.Kernel.Hand.frame (F := Bits) m ρ

/-- The kernel read at extended reals does the same. -/
theorem frame_ki : Cert.frame_KernelIdeal := fun m ρ _ => Cert.KernelIdeal.Hand.frame (F := Ideal) m ρ

/-- The array program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's is the
    layer with the quotient taken last, the array program's the layer with the softmax weights taken first, and
    for real inputs these are one function. -/
theorem algebraic : Cert.algebraic_KernelIdeal_ReferenceIdeal := by
  intro m ρ m' ρ' hpre hagree
  refine ⟨fun c => Cert.KernelIdeal.Hand.W6 (F := Ideal) m ρ c (Proc.devRef .tc Cert.KernelIdeal.main_v6),
    Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  funext idx
  obtain ⟨b, i, e, rfl⟩ : ∃ (b : Fin 2) (i : Fin 2048) (e : Fin 1024), idx = ix3 b i e := ⟨idx 0, idx 1, idx 2, eq_ix3 idx⟩
  have hr := Cert.Attn.Fin'.real_of_pre m hpre c
  rw [Cert.Attn.Ref.result_eq, (hagree c).1, (hagree c).2.1, (hagree c).2.2.1, (hagree c).2.2.2.1, (hagree c).2.2.2.2]
  exact ((Cert.KernelIdeal.HandV.kernel_value m ρ c b i e).trans
    (Cert.Attn.Alg.specK_eq_specR _ _ _ _ _ hr.1 hr.2.1 hr.2.2.1 b i e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
